-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x64 : Shape := ⟨2, ![256, 64]⟩
abbrev S128x1 : Shape := ⟨2, ![128, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S8192x256 .f32) (main_arg1 : IVec S8192x8192 1) (main_arg2 : FVec F S256x64 .f32) (main_arg3 : FVec F S128x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S256x64 : Shape := ⟨2, ![256, 64]⟩
abbrev S128x1 : Shape := ⟨2, ![128, 1]⟩
abbrev S8192x64 : Shape := ⟨2, ![8192, 64]⟩
abbrev S8192x1 : Shape := ⟨2, ![8192, 1]⟩
abbrev S1024x256 : Shape := ⟨2, ![1024, 256]⟩
abbrev S1024x64 : Shape := ⟨2, ![1024, 64]⟩
abbrev S1024x1 : Shape := ⟨2, ![1024, 1]⟩
abbrev S64x1 : Shape := ⟨2, ![64, 1]⟩
abbrev S_ : Shape := ⟨0, ![]⟩
abbrev S1x8192 : Shape := ⟨2, ![1, 8192]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 17
  | .vmem => 20
  | .smem => 0
  | _ => 0

abbrev bufTy : (tb : Table) → Fin (tcTables nBuf tb) → BufTy
  | .hbm, ⟨0, _⟩ => ⟨S8192x256, .f32⟩
  | .hbm, ⟨1, _⟩ => ⟨S8192x8192, .i1⟩
  | .hbm, ⟨2, _⟩ => ⟨S256x64, .f32⟩
  | .hbm, ⟨3, _⟩ => ⟨S128x1, .f32⟩
  | .hbm, ⟨4, _⟩ => ⟨S8192x64, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S1x8192, .f32⟩
  | .hbm, ⟨16, _⟩ => ⟨S8192x64, .f32⟩
  | .local _ .vmem, ⟨0, _⟩ => ⟨S1024x256, .f32⟩
  | .local _ .vmem, ⟨1, _⟩ => ⟨S1024x256, .f32⟩
  | .local _ .vmem, ⟨2, _⟩ => ⟨S256x64, .f32⟩
  | .local _ .vmem, ⟨3, _⟩ => ⟨S128x1, .f32⟩
  | .local _ .vmem, ⟨4, _⟩ => ⟨S1024x64, .f32⟩
  | .local _ .vmem, ⟨5, _⟩ => ⟨S1024x64, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1x8192, .f32⟩
  | .local _ .vmem, ⟨15, _⟩ => ⟨S8192x64, .f32⟩
  | .local _ .vmem, ⟨16, _⟩ => ⟨S1024x64, .f32⟩
  | .local _ .vmem, ⟨17, _⟩ => ⟨S1024x64, .f32⟩
  | .local _ .vmem, ⟨18, _⟩ => ⟨S1024x1, .f32⟩
  | .local _ .vmem, ⟨19, _⟩ => ⟨S1024x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_mult2 (i : grid1.Coords) : BitVec 32 :=
  let arg1 : BitVec 32 := BitVec.ofNat 32 (i 1).val
  let c1024_i32_1 : BitVec 32 := 1024#32
  let v5 : BitVec 32 := Scalar.muli arg1 c1024_i32_1
  v5
def k1_off1 (i : grid1.Coords) : Fin 2 → Nat :=
  let c0_5 : Index := 0#32
  let arg1 : BitVec 32 := BitVec.ofNat 32 (i 1).val
  let c1024_i32_1 : BitVec 32 := 1024#32
  let v5 : BitVec 32 := Scalar.muli arg1 c1024_i32_1
  let v6 : BitVec 32 := v5
  let v11 : Index := Scalar.indexCast v6
  ![0, v11.toNat]
def k1_off2 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v14 : Index := Scalar.indexCast v4
  let c0_6 : Index := 0#32
  ![v14.toNat, 0]
def k1_cond2 (i : grid1.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_17 : BitVec 32 := 0#32
  let v43 : BitVec 1 := Scalar.cmpi .ne v42 c0_i32_17
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1024x64_S1024x64_0_0 : ∀ a, (![0, 0] : Fin 2 → Nat) a + S1024x64.size a ≤ S1024x64.size a
  h_S1024x64 : 0 < S1024x64.numel
  inb_S128x1_S128x1_0_0 : ∀ a, (![0, 0] : Fin 2 → Nat) a + S128x1.size a ≤ S128x1.size a
  h_S128x1 : 0 < S128x1.numel
  slices_S128x1_o0_0_S64x1 : S128x1.Slices ![0, 0] S64x1
  slices_S128x1_o64_0_S64x1 : S128x1.Slices ![64, 0] S64x1
  inb_S1024x1_S1024x1_0_0 : ∀ a, (![0, 0] : Fin 2 → Nat) a + S1024x1.size a ≤ S1024x1.size a
  h_S1024x1 : 0 < S1024x1.numel
  reducesTo_S8192x1_S_d0_1 : S8192x1.ReducesTo [0, 1] S_
  h_S_ : 0 < S_.numel
  bcast_S_S8192x1 : S_.BroadcastsInDim S8192x1 (![] : Fin 0 → Fin S8192x1.rank)
  shapeCasts_S8192x1_S1x8192 : S8192x1.ShapeCasts S1x8192
  shapeCasts_S1024x1_S1024x1 : S1024x1.ShapeCasts S1024x1
  shapeCasts_S1024x64_S1024x64 : S1024x64.ShapeCasts S1024x64
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x64 : S1024x1.Broadcasts S1024x64
  dot_S1024x256_S256x64_S1024x64_1_0_0_1_n_n_wf : DotDims.WF S1024x256 S256x64 S1024x64 [1] [0] [0] [1] [] []
  dot_S1024x64_S64x1_S1024x1_1_0_0_1_n_n_wf : DotDims.WF S1024x64 S64x1 S1024x1 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hrank1 : 0 < grid1.rank
  k1_mult1_dvd : ∀ i : grid1.Coords, 1024 ∣ (k1_mult1 i).toNat
  k1_mult2_dvd : ∀ i : grid1.Coords, 1024 ∣ (k1_mult2 i).toNat
  k1_off1_inb : ∀ i : grid1.Coords, ∀ a, (k1_off1 i) a + S1x1024.size a ≤ S1x8192.size a
  k1_off2_inb : ∀ i : grid1.Coords, ∀ a, (k1_off2 i) a + S1024x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S8192x64.size a
  hwx1_3 : ∀ i : grid1.Coords, EltTy.bits .f32 = 32 ∨ (Rect.block (s := S8192x64) S8192x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S8192x64.size a
  hwx1_4 : ∀ i : grid1.Coords, EltTy.bits .f32 = 32 ∨ (Rect.block (s := S8192x64) S1024x64.size (cc1_transform_4 i) (hinb1_4 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_1) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S8192x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x64 : Shape := ⟨2, ![256, 64]⟩
abbrev S128x1 : Shape := ⟨2, ![128, 1]⟩
abbrev S8192x64 : Shape := ⟨2, ![8192, 64]⟩
abbrev S64x1 : Shape := ⟨2, ![64, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i1⟩
  | .hbm, ⟨2, _⟩ => ⟨S256x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S8192x1, .f32⟩
  | .hbm, ⟨7, _⟩ => ⟨S64x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KFrameR0.lean ====
/-
  Region 0 of the kernel program (the preparation call): the frame half, at any float instance.

  The call runs on a grid of eight points. At each point it reads a block of 1024 rows of the node features,
  the whole projection matrix and the whole attention vector, and writes a block of 1024 rows of each of three
  results: the projected features and the two score columns. Everything is stated at a parameter `V`, the
  buffer contents when the region is entered.
-/
import proofs.«127026_j42253888258789_2_alg».proof.Proof.Gen.Kernel.Launch
import proofs.«127026_j42253888258789_2_alg».proof.Proof.Gen.Kernel.Skeleton
import proofs.«127026_j42253888258789_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the block was
    fetched there or carried over from the point before (then the block index has not moved): for any proof data
    whose array is the entry contents and whose body leaves the block in place. Window 0: the feature rows. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1: the projection matrix, one block for the whole grid. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2: the attention vector, one block for the whole grid. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev rH : Rect S1024x256 := Rect.unit (s := S1024x256) ![0, 0] S1024x256.size inb_S1024x256_S1024x256_0_0
abbrev rW : Rect S256x64 := Rect.unit (s := S256x64) ![0, 0] S256x64.size inb_S256x64_S256x64_0_0
abbrev rA : Rect S128x1 := Rect.unit (s := S128x1) ![0, 0] S128x1.size inb_S128x1_S128x1_0_0
abbrev rP : Rect S1024x64 := Rect.unit (s := S1024x64) ![0, 0] S1024x64.size inb_S1024x64_S1024x64_0_0
abbrev rS : Rect S1024x1 := Rect.unit (s := S1024x1) ![0, 0] S1024x1.size inb_S1024x1_S1024x1_0_0

/-! ## What the body leaves in each output window's buffer -/

/-- The projected-features buffer after the body: its one store, of the product of the loaded blocks. -/
def out0_3 (x0 : Vec F S1024x256 .f32) (x1 : Vec F S256x64 .f32) : Vec F S1024x64 .f32 :=
  View.canon [⟨rP, k0_pay1 (View.ld x0 rH) (View.ld x1 rW)⟩]

/-- The source-score buffer after the body: its one store. -/
def out0_4 (x0 : Vec F S1024x256 .f32) (x1 : Vec F S256x64 .f32) (x2 : Vec F S128x1 .f32) : Vec F S1024x1 .f32 :=
  View.canon [⟨rS, k0_pay3 (View.ld x0 rH) (View.ld x1 rW) (View.ld x2 rA)⟩]

/-- The destination-score buffer after the body: its one store. -/
def out0_5 (x0 : Vec F S1024x256 .f32) (x1 : Vec F S256x64 .f32) (x2 : Vec F S128x1 .f32) : Vec F S1024x1 .f32 :=
  View.canon [⟨rS, k0_pay4 (View.ld x0 rH) (View.ld x1 rW) (View.ld x2 rA)⟩]

/-- A single whole-buffer store covers the buffer. -/
theorem coverP (p0 : Vec F S1024x64 .f32) (y : S1024x64.Idx) :
    ∃ pc ∈ ([⟨rP, p0⟩] : List (View.Piece (Elt F) S1024x64 .f32)), y ∈ pc.1.set :=
  View.cover_of_tiled [⟨rP, p0⟩] S1024x64.size (by rfl) y

theorem coverS (p0 : Vec F S1024x1 .f32) (y : S1024x1.Idx) :
    ∃ pc ∈ ([⟨rS, p0⟩] : List (View.Piece (Elt F) S1024x1 .f32)), y ∈ pc.1.set :=
  View.cover_of_tiled [⟨rS, p0⟩] S1024x1.size (by rfl) y

/-! ## The body's triple -/

set_option maxHeartbeats 1000000 in
/-- The body on whole staging memrefs — the three inputs' at read contents `x0`, `x1`, `x2`, the three outputs' at
    anything — runs to the continuation holding the inputs' as they were and each output's at the store's payload
    over the inputs. The body reads each output buffer once before storing to it; what it reads there is unused. -/
theorem sound_kernel0 (c : Dev nD) (E : Set ℕ) (i : grid0.Coords)
    (arg1 : Memref sig .tc .vmem S1024x256 .f32) (harg1 : arg1.IsWhole) (arg2 : Memref sig .tc .vmem S256x64 .f32) (harg2 : arg2.IsWhole)
    (arg3 : Memref sig .tc .vmem S128x1 .f32) (harg3 : arg3.IsWhole) (arg4 : Memref sig .tc .vmem S1024x64 .f32) (harg4 : arg4.IsWhole)
    (arg5 : Memref sig .tc .vmem S1024x1 .f32) (harg5 : arg5.IsWhole) (arg6 : Memref sig .tc .vmem S1024x1 .f32) (harg6 : arg6.IsWhole)
    (x0 : Vec F S1024x256 .f32) (x1 : Vec F S256x64 .f32) (x2 : Vec F S128x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__prep_kernel i arg1 harg1 arg2 harg2 arg3 harg3 arg4 harg4 arg5 harg5 arg6 harg6) K := by
  simp only [cc0__prep_kernel_eq_skeleton]; unfold cc0__prep_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverP _)
  isplitl [H5]
  · iexists _; isplitr
    swap; · iexact H5
    ipureintro
    exact View.read_writes_eq_canon _ _ _ (coverS _)
  iexists _; isplitr
  swap; · iexact H6
  ipureintro
  exact View.read_writes_eq_canon _ _ _ (coverS _)

/-! ## The pipeline's proof data -/

/-- The proof data of the call on core `c`: the arrays as the region finds them; after the body at point `t` each
    input's buffer at its block and each output's at the store's payload over the input blocks; the invariant is the
    one that only carries the untouched rest along; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KFrameR1Runs.lean ====
/-
  The attention kernel (the program's second region) on one grid point (query tile qi, key tile kv), what its
  per-case runs share. The body zeroes the two accumulators when kv = 0, adds this key tile's row sums and weighted
  feature sums to them, and when kv = 7 stores their quotient into the output block. So a point is in one of three
  cases: first key tile (A), a middle one (B), the last (C). Stated here: each window's block at a point as read
  off the array the region finds, the two branch conditions in closed form over the 8 × 8 grid, where the output
  window is idle (everywhere but the last key tile), and the memrefs the body is called with.
-/
import proofs.«127026_j42253888258789_2_alg».proof.Proof.Gen.Kernel.Launch
import proofs.«127026_j42253888258789_2_alg».proof.Proof.Gen.Kernel.Skeleton
import proofs.«127026_j42253888258789_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it was not
    fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions -/

/-- "This is the first key tile": the body's first conditional, from the grid coordinates. -/
abbrev cond1_0 (i : grid1.Coords) : Prop := (Scalar.cmpi .ne (Scalar.extui (Scalar.cmpi .eq (BitVec.ofNat 32 (i 1).val) 0#32)) 0#32) = 1#1
/-- It holds exactly at the points whose key-tile coordinate is 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile": the body's second conditional. -/
abbrev cond1_1 (i : grid1.Coords) : Prop := k1_cond2 i = 1#1
/-- It holds exactly at the points whose key-tile coordinate is 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Before the last key tile the output block is not stored into: the window is idle there, -/
theorem idleAt1_4 : ∀ t : Fin cfg1.N, ¬cond1_1 (grid1.coords t) → cfg1.idle 4 (grid1.coords t) = true := by decide +kernel
/-- and is not written back there. -/
theorem noFlush1_4 : ∀ t : Fin cfg1.N, ¬cond1_1 (grid1.coords t) → (cfg1.win 4).flush t = false := by decide +kernel
/-- At the last key tile the output block is stored. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S1024x64 .f32 := (Memref.whole cc1_stg4_0 : Memref sig .tc .vmem S1024x64 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The two accumulators: the row sums and the weighted feature sums, carried from one key tile to the next. -/
abbrev scM1_0 : Memref sig .tc .vmem S1024x1 .f32 := Memref.whole cc1_scratch0
abbrev scM1_1 : Memref sig .tc .vmem S1024x64 .f32 := Memref.whole cc1_scratch1
abbrev VS1_0 : View sig .tc .vmem S1024x1 .f32 := scM1_0.view
abbrev VS1_1 : View sig .tc .vmem S1024x64 .f32 := scM1_1.view

end Cert.Kernel.Frm

end
-- ==== Proof.KFrameR1RunA.lean ====
/-
  The attention kernel's whole body in case A: the first key tile. Both accumulators are zeroed, then this tile's row sums and weighted feature sums are added; the output block is not touched.
-/
import proofs.«127026_j42253888258789_2_alg».proof.Proof.KFrameR1Runs

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole memrefs in case A: the pieces its stores leave in the output block and in the two
    accumulators (found by running it), with the proof that it runs to the continuation holding every input as it
    was and each stored buffer with those pieces written. -/
noncomputable def kernelRun1_A (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : cond1_0 i) (hc1 : ¬cond1_1 i)
    (x0 : Vec F S1024x1 .f32) (x1 : Vec F S1024x1 .f32) (x2 : Vec F S1x8192 .f32) (x3 : Vec F S8192x64 .f32) :
    Σ' (L4 : List (View.Piece (Elt F) S1024x64 .f32)) (LS0 : List (View.Piece (Elt F) S1024x1 .f32)), { LS1 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Frm

end
-- ==== Proof.KFrameR1RunB.lean ====
/-
  The attention kernel's whole body in case B: a middle key tile. This tile's row sums and weighted feature sums are added to the accumulators as the tile before left them; the output block is not touched.
-/
import proofs.«127026_j42253888258789_2_alg».proof.Proof.KFrameR1Runs

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole memrefs in case B: the pieces its stores leave in the output block and in the two
    accumulators (found by running it), with the proof that it runs to the continuation holding every input as it
    was and each stored buffer with those pieces written. -/
noncomputable def kernelRun1_B (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) :
    Σ' (L4 : List (View.Piece (Elt F) S1024x64 .f32)) (LS0 : List (View.Piece (Elt F) S1024x1 .f32)), { LS1 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Frm

end
-- ==== Proof.KFrameR1RunC.lean ====
/-
  The attention kernel's whole body in case C: the last key tile. The accumulators are completed and their quotient is stored as the output block.
-/
import proofs.«127026_j42253888258789_2_alg».proof.Proof.KFrameR1Runs

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole memrefs in case C: the pieces its stores leave in the output block and in the two
    accumulators (found by running it), with the proof that it runs to the continuation holding every input as it
    was and each stored buffer with those pieces written. -/
noncomputable def kernelRun1_C (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) :
    Σ' (L4 : List (View.Piece (Elt F) S1024x64 .f32)) (LS0 : List (View.Piece (Elt F) S1024x1 .f32)), { LS1 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Frm

end
-- ==== Proof.KFrameR1.lean ====
/-
  The attention kernel's region, whatever arrays it is entered with: what the two accumulators and the output block
  hold after every grid point, the region's invariant, and the obligation that the body, run at any point from
  the state the point before left, leaves the state the next point expects.

  A grid point is a pair (query tile, key tile), the key tile running fastest. At the first key tile the body
  zeroes the row-sum accumulator and the weighted-sum accumulator and adds the tile's contribution; at every later
  key tile it adds to what the tile before left; at the last it also stores the quotient of the two as the output
  block, which is the only point where that block is stored and written back. Between points the accumulators
  live in two buffers of the kernel's own, so the invariant before point n + 1 holds them at exactly what point n
  left in them.
-/
import proofs.«127026_j42253888258789_2_alg».proof.Proof.KFrameR1RunA
import proofs.«127026_j42253888258789_2_alg».proof.Proof.KFrameR1RunB
import proofs.«127026_j42253888258789_2_alg».proof.Proof.KFrameR1RunC

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The stores of each case cover the buffers they fill -/

theorem scover1_A_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : cond1_0 i) (hc1 : ¬cond1_1 i)
    (x0 : Vec F S1024x1 .f32) (x1 : Vec F S1024x1 .f32) (x2 : Vec F S1x8192 .f32) (x3 : Vec F S8192x64 .f32) (y : S1024x1.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S1024x1.size (by sl_kernel_rfl) y
theorem scover1_A_1 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : cond1_0 i) (hc1 : ¬cond1_1 i)
    (x0 : Vec F S1024x1 .f32) (x1 : Vec F S1024x1 .f32) (x2 : Vec F S1x8192 .f32) (x3 : Vec F S8192x64 .f32) (y : S1024x64.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S1024x64.size (by sl_kernel_rfl) y
theorem scover1_B_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) (y : S1024x1.Idx) :
    ∃ pc ∈ (kernelRun1_B c i arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.1 S1024x1.size (by sl_kernel_rfl) y
theorem scover1_B_1 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) (y : S1024x64.Idx) :
    ∃ pc ∈ (kernelRun1_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.2.1 S1024x64.size (by sl_kernel_rfl) y
theorem cover1_C_4 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) (y : S1024x64.Idx) :
    ∃ pc ∈ (kernelRun1_C c i arg2 harg2 arg3 harg3 arg4 harg4 arg5 harg5 arg6 harg6 arg7 harg7 arg8 harg8 hc0 hc1 x0 x1 x2 x3 xs0 xs1).1, y ∈ pc.1.set :=
  View.cover_of_tiledL (kernelRun1_C c i arg2 harg2 arg3 harg3 arg4 harg4 arg5 harg5 arg6 harg6 arg7 harg7 arg8 harg8 hc0 hc1 x0 x1 x2 x3 xs0 xs1).1 S1024x64.size (by sl_kernel_rfl) y
theorem scover1_C_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) (y : S1024x1.Idx) :
    ∃ pc ∈ (kernelRun1_C c i arg2 harg2 arg3 harg3 arg4 harg4 arg5 harg5 arg6 harg6 arg7 harg7 arg8 harg8 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.1 S1024x1.size (by sl_kernel_rfl) y
theorem scover1_C_1 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) (y : S1024x64.Idx) :
    ∃ pc ∈ (kernelRun1_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.2.1 S1024x64.size (by sl_kernel_rfl) y

/-! ## The core's scoped buffers as the region's invariant holds them -/

/-- A scoped buffer held whole at some contents. -/
abbrev stg (c : Dev nD) (b : Ref sig .tc) : sProp 𝕄 :=
  iprop(∃ f : Buf (Elt F) ((c : Thread nD τ).loc b), ((c : Thread nD τ).loc b) ↦{fullShare} f)

/-- The core's scoped buffers that are no staging buffer of this region: the first region's staging buffers, each at
    some contents, and the two accumulators in the states `S0`, `S1`. -/
def scoped1 (c : Dev nD) (S0 S1 : sProp 𝕄) : sProp 𝕄 :=
  iprop(stg (F := F) c cc0_stg0_0 ∗ stg (F := F) c cc0_stg0_1 ∗ stg (F := F) c cc0_stg1_0 ∗ stg (F := F) c cc0_stg2_0 ∗ stg (F := F) c cc0_stg3_0 ∗ stg (F := F) c cc0_stg3_1 ∗ stg (F := F) c cc0_stg4_0 ∗ stg (F := F) c cc0_stg4_1 ∗ stg (F := F) c cc0_stg5_0 ∗ stg (F := F) c cc0_stg5_1 ∗ S0 ∗ S1)

/-- What the launch hands the region: both accumulators at anything. -/
theorem PhiA1_eq (c : Dev nD) :
    (Pipeline.ΦA spec1 c : sProp 𝕄)
      = iprop(scoped1 c (iprop(∃ d, owns (c : Thread nD τ) scM1_0 fullShare d)) (iprop(∃ d, owns (c : Thread nD τ) scM1_1 fullShare d)) ∗ (∃ r, prngReg c r)) := by
  unfold Pipeline.ΦA scoped1; rw [scopedRest1_eq]; simp only [scM1_0, scM1_1, owns_whole]; try rfl

section
variable (V : (c : Dev nD) → (b : Ref sig .tc) → Buf (Elt F) ((c : Thread nD τ).loc b))

/-! ## What each case leaves, at the point's own memrefs and blocks -/

/-- Case A's run at point `t`. -/
def runA (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => by have h' := (hcond1_1 t).mp h; omega) (iblk1 V c 0 t) (iblk1 V c 1 t) (iblk1 V c 2 t) (iblk1 V c 3 t)

/-- What case A leaves at point `t`: the output block (nothing is stored: a placeholder nothing reads), the row-sum accumulator, the weighted-sum accumulator. -/
def caseA (c : Dev nD) (t : Fin cfg1.N) (h0 : t.val % 8 = 0) : Vec F S1024x64 .f32 × Vec F S1024x1 .f32 × Vec F S1024x64 .f32 :=
  (VO1_4.read (Elt F) (VO1_4.writes (Elt F) VO1_4.junk (runA V c t h0).1),
   VS1_0.read (Elt F) (VS1_0.writes (Elt F) VS1_0.junk (runA V c t h0).2.1),
   VS1_1.read (Elt F) (VS1_1.writes (Elt F) VS1_1.junk (runA V c t h0).2.2.1))

/-- Case B's run at point `t`. -/
def runB (c : Dev nD) (t : Fin cfg1.N) (h0 : ¬t.val % 8 = 0) (h1 : ¬t.val % 8 = 7) (xs0 : Vec F S1024x1 .f32) (xs1 : Vec F S1024x64 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) xs0 xs1

/-- What case B leaves at point `t`: the output block (nothing is stored: a placeholder nothing reads), the row-sum accumulator, the weighted-sum accumulator. -/
def caseB (c : Dev nD) (t : Fin cfg1.N) (h0 : ¬t.val % 8 = 0) (h1 : ¬t.val % 8 = 7) (xs0 : Vec F S1024x1 .f32) (xs1 : Vec F S1024x64 .f32) : Vec F S1024x64 .f32 × Vec F S1024x1 .f32 × Vec F S1024x64 .f32 :=
  (VO1_4.read (Elt F) (VO1_4.writes (Elt F) VO1_4.junk (runB V c t h0 h1 xs0 xs1).1),
   VS1_0.read (Elt F) (VS1_0.writes (Elt F) VS1_0.junk (runB V c t h0 h1 xs0 xs1).2.1),
   VS1_1.read (Elt F) (VS1_1.writes (Elt F) VS1_1.junk (runB V c t h0 h1 xs0 xs1).2.2.1))

/-- Case C's run at point `t`. -/
def runC (c : Dev nD) (t : Fin cfg1.N) (h0 : ¬t.val % 8 = 0) (h1 : t.val % 8 = 7) (xs0 : Vec F S1024x1 .f32) (xs1 : Vec F S1024x64 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1

/-- What case C leaves at point `t`: the output block (the stored quotient), the row-sum accumulator, the weighted-sum accumulator. -/
def caseC (c : Dev nD) (t : Fin cfg1.N) (h0 : ¬t.val % 8 = 0) (h1 : t.val % 8 = 7) (xs0 : Vec F S1024x1 .f32) (xs1 : Vec F S1024x64 .f32) : Vec F S1024x64 .f32 × Vec F S1024x1 .f32 × Vec F S1024x64 .f32 :=
  (VO1_4.read (Elt F) (VO1_4.writes (Elt F) VO1_4.junk (runC V c t h0 h1 xs0 xs1).1),
   VS1_0.read (Elt F) (VS1_0.writes (Elt F) VS1_0.junk (runC V c t h0 h1 xs0 xs1).2.1),
   VS1_1.read (Elt F) (VS1_1.writes (Elt F) VS1_1.junk (runC V c t h0 h1 xs0 xs1).2.2.1))

/-! ## What the buffers hold after each point -/

/-- After the body at position `n`: the output block, the row-sum accumulator and the weighted-sum accumulator —
    the case the position is in, the accumulators entering it at what position `n - 1` left. -/
def outsAt1 (c : Dev nD) : (n : ℕ) → n < cfg1.N → Vec F S1024x64 .f32 × Vec F S1024x1 .f32 × Vec F S1024x64 .f32
  | 0, hn => caseA V c ⟨0, hn⟩ (Nat.zero_mod _)
  | n + 1, hn =>
    if h0 : (n + 1) % 8 = 0 then caseA V c ⟨n + 1, hn⟩ h0
    else if h1 : (n + 1) % 8 = 7 then
      caseC V c ⟨n + 1, hn⟩ h0 h1 (outsAt1 c n (Nat.lt_of_succ_lt hn)).2.1 (outsAt1 c n (Nat.lt_of_succ_lt hn)).2.2
    else
      caseB V c ⟨n + 1, hn⟩ h0 h1 (outsAt1 c n (Nat.lt_of_succ_lt hn)).2.1 (outsAt1 c n (Nat.lt_of_succ_lt hn)).2.2

theorem outsAt1_A (c : Dev nD) (t : Fin cfg1.N) (h0 : t.val % 8 = 0) : outsAt1 V c t.val t.isLt = caseA V c t h0 := by
  obtain ⟨n, hn⟩ := t
  cases n with
  | zero => rfl
  | succ n => exact dif_pos h0

theorem outsAt1_B (c : Dev nD) (t : Fin cfg1.N) (h0 : ¬t.val % 8 = 0) (h1 : ¬t.val % 8 = 7) :
    outsAt1 V c t.val t.isLt = caseB V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The region's invariant -/

/-- Before position `n`: at the first point what the launch hands over (both accumulators at anything); afterwards
    the accumulators at exactly what the point before left in them. -/
def PhiS (c : Dev nD) : (n : ℕ) → n ≤ cfg1.N → sProp 𝕄
  | 0, _ => Pipeline.ΦA spec1 c
  | n + 1, hn => iprop(scoped1 c (owns (c : Thread nD τ) scM1_0 fullShare (outsAt1 V c n hn).2.1) (owns (c : Thread nD τ) scM1_1 fullShare (outsAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 c (owns (c : Thread nD τ) scM1_0 fullShare (outsAt1 V c n hn).2.1) (owns (c : Thread nD τ) scM1_1 fullShare (outsAt1 V c n hn).2.2) ∗ (∃ r, prngReg c r)) := rfl

theorem PhiS_pos (c : Dev nD) (n : ℕ) (h : n ≤ cfg1.N) (hz : n ≠ 0) :
    PhiS V c n h = iprop(scoped1 c (owns (c : Thread nD τ) scM1_0 fullShare (outsAt1 V c (n - 1) (by omega)).2.1) (owns (c : Thread nD τ) scM1_1 fullShare (outsAt1 V c (n - 1) (by omega)).2.2) ∗ (∃ r, prngReg c r)) := by
  cases n with
  | zero => exact absurd rfl hz
  | succ n => rfl

/-! ## The region's proof data -/

/-- The arrays as the region finds them; after the body each input's buffer at its block, the output's at what
    `outsAt1` says; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the point's position among the key tiles says which
    case it is in; the invariant hands the body the accumulators at what the point before left (at anything at the
    very first point, and the first key tile of a later query tile overwrites them unread) and takes them back at this
    point's contents; before the last key tile the output's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0]
    unfold caseA runA; (try dsimp only)
    by_cases hz : t.val = 0
    ·
      rw [PhiS_castSucc V c t, PhiS_zero V c _ _ hz, PhiA1_eq]
      unfold scoped1
      iintro ⟨⟨⟨B0, B1, B2, B3, B4, B5, B6, B7, B8, B9, HS0, HS1⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => by have h' := (hcond1_1 t).mp h; omega) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [B0 B1 B2 B3 B4 B5 B6 B7 B8 B9 HS0 HS1 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        unfold owns; iexists _; isplitr
        swap; · iexact HS1
        ipureintro; exact View.read_writes_of_cover _ _ _ _ _ (scover1_A_1 c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    ·
      rw [PhiS_castSucc V c t, PhiS_pos V c _ _ hz]
      unfold scoped1
      iintro ⟨⟨⟨B0, B1, B2, B3, B4, B5, B6, B7, B8, B9, HS0, HS1⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => by have h' := (hcond1_1 t).mp h; omega) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [B0 B1 B2 B3 B4 B5 B6 B7 B8 B9 HS0 HS1 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        unfold owns; iexists _; isplitr
        swap; · iexact HS1
        ipureintro; exact View.read_writes_of_cover _ _ _ _ _ (scover1_A_1 c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold caseC runC; (try dsimp only)
      have hz : t.val ≠ 0 := by omega
      rw [PhiS_castSucc V c t, PhiS_pos V c _ _ hz]
      unfold scoped1
      iintro ⟨⟨⟨B0, B1, B2, B3, B4, B5, B6, B7, B8, B9, HS0, HS1⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [B0 B1 B2 B3 B4 B5 B6 B7 B8 B9 HS0 HS1 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        unfold owns; iexists _; isplitr
        swap; · iexact HS1
        ipureintro; exact View.read_writes_of_cover _ _ _ _ _ (scover1_C_1 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold caseB runB; (try dsimp only)
      have hz : t.val ≠ 0 := by omega
      rw [PhiS_castSucc V c t, PhiS_pos V c _ _ hz]
      unfold scoped1
      iintro ⟨⟨⟨B0, B1, B2, B3, B4, B5, B6, B7, B8, B9, HS0, HS1⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [B0 B1 B2 B3 B4 B5 B6 B7 B8 B9 HS0 HS1 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        unfold owns; iexists _; isplitr
        swap; · iexact HS1
        ipureintro; exact View.read_writes_of_cover _ _ _ _ _ (scover1_B_1 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the accumulators' contents forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold scoped1
  iintro ⟨⟨B0, B1, B2, B3, B4, B5, B6, B7, B8, B9, HS0, HS1⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [HS0]; · iexists _; iexact HS0
  iexists _; iexact HS1

end

end Cert.Kernel.Frm

end
-- ==== Proof.KFrameRun.lean ====
/-
  The whole program's run: the projection kernel's region, the nine host operations that turn the destination
  scores into the row maxima and a row vector, and the attention kernel's region, one after the other on every core.
  Stated: what every unscoped buffer holds at each boundary between them — the launch contents; after a region its
  arrays at what the pipeline's write-backs leave and every other buffer as entered; after the host operations
  their fold — and that every weakly fair execution from a memory with zero counters terminates, faults nowhere,
  and ends with every unscoped buffer at the last boundary's contents. From this both the frame claim (each
  argument array walks back through the boundaries to its launch contents: nothing writes an argument) and the
  value of the result array are read.
-/
import proofs.«127026_j42253888258789_2_alg».proof.Proof.KFrameR0
import proofs.«127026_j42253888258789_2_alg».proof.Proof.KFrameR1
import proofs.«127026_j42253888258789_2_alg».proof.Proof.Gen.Kernel.Regions

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host operations leave alone every buffer they do not write. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h

/-! ### No region and no host operation writes an argument -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-! ## The proof data family and the thread state -/

/-- No region has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back at what the
    pipeline leaves in them at exit; the generator register and the scoped buffers go into the region's invariant
    and come back out of it; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at what the
    pipeline leaves in them at exit; the generator register and the scoped buffers go into the region's invariant
    and come back out of it; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from `m` with zero counters terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame claim at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The run with the result array named: it ends at what the attention kernel's pipeline leaves in its output
    array, entered from the host operations' fold over the projection kernel's outputs. -/
theorem run_result : θ_run defs (onTc (τ := τ) (main (F := F))) ⟨m, fun _ => 0, ρ⟩ (fun r => ∀ c : Dev nD,
      r.2.mem ((c.tc : Thread nD τ).loc main_v8) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v8 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Frm

end
-- ==== Proof.FrameR0.lean ====
/-
  Region 0 of the kernel program (the preparation call): the frame half, at any float instance.

  The call runs on a grid of eight points. At each point it reads a block of 1024 rows of the node features,
  the whole projection matrix and the whole attention vector, and writes a block of 1024 rows of each of three
  results: the projected features and the two score columns. Everything is stated at a parameter `V`, the
  buffer contents when the region is entered.
-/
import proofs.«127026_j42253888258789_2_alg».proof.Proof.Gen.KernelIdeal.Launch
import proofs.«127026_j42253888258789_2_alg».proof.Proof.Gen.KernelIdeal.Skeleton
import proofs.«127026_j42253888258789_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the block was
    fetched there or carried over from the point before (then the block index has not moved): for any proof data
    whose array is the entry contents and whose body leaves the block in place. Window 0: the feature rows. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1: the projection matrix, one block for the whole grid. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2: the attention vector, one block for the whole grid. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev rH : Rect S1024x256 := Rect.unit (s := S1024x256) ![0, 0] S1024x256.size inb_S1024x256_S1024x256_0_0
abbrev rW : Rect S256x64 := Rect.unit (s := S256x64) ![0, 0] S256x64.size inb_S256x64_S256x64_0_0
abbrev rA : Rect S128x1 := Rect.unit (s := S128x1) ![0, 0] S128x1.size inb_S128x1_S128x1_0_0
abbrev rP : Rect S1024x64 := Rect.unit (s := S1024x64) ![0, 0] S1024x64.size inb_S1024x64_S1024x64_0_0
abbrev rS : Rect S1024x1 := Rect.unit (s := S1024x1) ![0, 0] S1024x1.size inb_S1024x1_S1024x1_0_0

/-! ## What the body leaves in each output window's buffer -/

/-- The projected-features buffer after the body: its one store, of the product of the loaded blocks. -/
def out0_3 (x0 : Vec F S1024x256 .f32) (x1 : Vec F S256x64 .f32) : Vec F S1024x64 .f32 :=
  View.canon [⟨rP, k0_pay1 (View.ld x0 rH) (View.ld x1 rW)⟩]

/-- The source-score buffer after the body: its one store. -/
def out0_4 (x0 : Vec F S1024x256 .f32) (x1 : Vec F S256x64 .f32) (x2 : Vec F S128x1 .f32) : Vec F S1024x1 .f32 :=
  View.canon [⟨rS, k0_pay3 (View.ld x0 rH) (View.ld x1 rW) (View.ld x2 rA)⟩]

/-- The destination-score buffer after the body: its one store. -/
def out0_5 (x0 : Vec F S1024x256 .f32) (x1 : Vec F S256x64 .f32) (x2 : Vec F S128x1 .f32) : Vec F S1024x1 .f32 :=
  View.canon [⟨rS, k0_pay4 (View.ld x0 rH) (View.ld x1 rW) (View.ld x2 rA)⟩]

/-- A single whole-buffer store covers the buffer. -/
theorem coverP (p0 : Vec F S1024x64 .f32) (y : S1024x64.Idx) :
    ∃ pc ∈ ([⟨rP, p0⟩] : List (View.Piece (Elt F) S1024x64 .f32)), y ∈ pc.1.set :=
  View.cover_of_tiled [⟨rP, p0⟩] S1024x64.size (by rfl) y

theorem coverS (p0 : Vec F S1024x1 .f32) (y : S1024x1.Idx) :
    ∃ pc ∈ ([⟨rS, p0⟩] : List (View.Piece (Elt F) S1024x1 .f32)), y ∈ pc.1.set :=
  View.cover_of_tiled [⟨rS, p0⟩] S1024x1.size (by rfl) y

/-! ## The body's triple -/

set_option maxHeartbeats 1000000 in
/-- The body on whole staging memrefs — the three inputs' at read contents `x0`, `x1`, `x2`, the three outputs' at
    anything — runs to the continuation holding the inputs' as they were and each output's at the store's payload
    over the inputs. The body reads each output buffer once before storing to it; what it reads there is unused. -/
theorem sound_kernel0 (c : Dev nD) (E : Set ℕ) (i : grid0.Coords)
    (arg1 : Memref sig .tc .vmem S1024x256 .f32) (harg1 : arg1.IsWhole) (arg2 : Memref sig .tc .vmem S256x64 .f32) (harg2 : arg2.IsWhole)
    (arg3 : Memref sig .tc .vmem S128x1 .f32) (harg3 : arg3.IsWhole) (arg4 : Memref sig .tc .vmem S1024x64 .f32) (harg4 : arg4.IsWhole)
    (arg5 : Memref sig .tc .vmem S1024x1 .f32) (harg5 : arg5.IsWhole) (arg6 : Memref sig .tc .vmem S1024x1 .f32) (harg6 : arg6.IsWhole)
    (x0 : Vec F S1024x256 .f32) (x1 : Vec F S256x64 .f32) (x2 : Vec F S128x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__prep_kernel i arg1 harg1 arg2 harg2 arg3 harg3 arg4 harg4 arg5 harg5 arg6 harg6) K := by
  simp only [cc0__prep_kernel_eq_skeleton]; unfold cc0__prep_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverP _)
  isplitl [H5]
  · iexists _; isplitr
    swap; · iexact H5
    ipureintro
    exact View.read_writes_eq_canon _ _ _ (coverS _)
  iexists _; isplitr
  swap; · iexact H6
  ipureintro
  exact View.read_writes_eq_canon _ _ _ (coverS _)

/-! ## The pipeline's proof data -/

/-- The proof data of the call on core `c`: the arrays as the region finds them; after the body at point `t` each
    input's buffer at its block and each output's at the store's payload over the input blocks; the invariant is the
    one that only carries the untouched rest along; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.FrameR1Runs.lean ====
/-
  The attention kernel (the program's second region) on one grid point (query tile qi, key tile kv), what its
  per-case runs share. The body zeroes the two accumulators when kv = 0, adds this key tile's row sums and weighted
  feature sums to them, and when kv = 7 stores their quotient into the output block. So a point is in one of three
  cases: first key tile (A), a middle one (B), the last (C). Stated here: each window's block at a point as read
  off the array the region finds, the two branch conditions in closed form over the 8 × 8 grid, where the output
  window is idle (everywhere but the last key tile), and the memrefs the body is called with.
-/
import proofs.«127026_j42253888258789_2_alg».proof.Proof.Gen.KernelIdeal.Launch
import proofs.«127026_j42253888258789_2_alg».proof.Proof.Gen.KernelIdeal.Skeleton
import proofs.«127026_j42253888258789_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it was not
    fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions -/

/-- "This is the first key tile": the body's first conditional, from the grid coordinates. -/
abbrev cond1_0 (i : grid1.Coords) : Prop := (Scalar.cmpi .ne (Scalar.extui (Scalar.cmpi .eq (BitVec.ofNat 32 (i 1).val) 0#32)) 0#32) = 1#1
/-- It holds exactly at the points whose key-tile coordinate is 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile": the body's second conditional. -/
abbrev cond1_1 (i : grid1.Coords) : Prop := k1_cond2 i = 1#1
/-- It holds exactly at the points whose key-tile coordinate is 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Before the last key tile the output block is not stored into: the window is idle there, -/
theorem idleAt1_4 : ∀ t : Fin cfg1.N, ¬cond1_1 (grid1.coords t) → cfg1.idle 4 (grid1.coords t) = true := by decide +kernel
/-- and is not written back there. -/
theorem noFlush1_4 : ∀ t : Fin cfg1.N, ¬cond1_1 (grid1.coords t) → (cfg1.win 4).flush t = false := by decide +kernel
/-- At the last key tile the output block is stored. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S1024x64 .f32 := (Memref.whole cc1_stg4_0 : Memref sig .tc .vmem S1024x64 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The two accumulators: the row sums and the weighted feature sums, carried from one key tile to the next. -/
abbrev scM1_0 : Memref sig .tc .vmem S1024x1 .f32 := Memref.whole cc1_scratch0
abbrev scM1_1 : Memref sig .tc .vmem S1024x64 .f32 := Memref.whole cc1_scratch1
abbrev VS1_0 : View sig .tc .vmem S1024x1 .f32 := scM1_0.view
abbrev VS1_1 : View sig .tc .vmem S1024x64 .f32 := scM1_1.view

end Cert.KernelIdeal.Frm

end
-- ==== Proof.FrameR1RunA.lean ====
/-
  The attention kernel's whole body in case A: the first key tile. Both accumulators are zeroed, then this tile's row sums and weighted feature sums are added; the output block is not touched.
-/
import proofs.«127026_j42253888258789_2_alg».proof.Proof.FrameR1Runs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole memrefs in case A: the pieces its stores leave in the output block and in the two
    accumulators (found by running it), with the proof that it runs to the continuation holding every input as it
    was and each stored buffer with those pieces written. -/
noncomputable def kernelRun1_A (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : cond1_0 i) (hc1 : ¬cond1_1 i)
    (x0 : Vec F S1024x1 .f32) (x1 : Vec F S1024x1 .f32) (x2 : Vec F S1x8192 .f32) (x3 : Vec F S8192x64 .f32) :
    Σ' (L4 : List (View.Piece (Elt F) S1024x64 .f32)) (LS0 : List (View.Piece (Elt F) S1024x1 .f32)), { LS1 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Frm

end
-- ==== Proof.FrameR1RunB.lean ====
/-
  The attention kernel's whole body in case B: a middle key tile. This tile's row sums and weighted feature sums are added to the accumulators as the tile before left them; the output block is not touched.
-/
import proofs.«127026_j42253888258789_2_alg».proof.Proof.FrameR1Runs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole memrefs in case B: the pieces its stores leave in the output block and in the two
    accumulators (found by running it), with the proof that it runs to the continuation holding every input as it
    was and each stored buffer with those pieces written. -/
noncomputable def kernelRun1_B (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) :
    Σ' (L4 : List (View.Piece (Elt F) S1024x64 .f32)) (LS0 : List (View.Piece (Elt F) S1024x1 .f32)), { LS1 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Frm

end
-- ==== Proof.FrameR1RunC.lean ====
/-
  The attention kernel's whole body in case C: the last key tile. The accumulators are completed and their quotient is stored as the output block.
-/
import proofs.«127026_j42253888258789_2_alg».proof.Proof.FrameR1Runs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole memrefs in case C: the pieces its stores leave in the output block and in the two
    accumulators (found by running it), with the proof that it runs to the continuation holding every input as it
    was and each stored buffer with those pieces written. -/
noncomputable def kernelRun1_C (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) :
    Σ' (L4 : List (View.Piece (Elt F) S1024x64 .f32)) (LS0 : List (View.Piece (Elt F) S1024x1 .f32)), { LS1 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Frm

end
-- ==== Proof.FrameR1.lean ====
/-
  The attention kernel's region, whatever arrays it is entered with: what the two accumulators and the output block
  hold after every grid point, the region's invariant, and the obligation that the body, run at any point from
  the state the point before left, leaves the state the next point expects.

  A grid point is a pair (query tile, key tile), the key tile running fastest. At the first key tile the body
  zeroes the row-sum accumulator and the weighted-sum accumulator and adds the tile's contribution; at every later
  key tile it adds to what the tile before left; at the last it also stores the quotient of the two as the output
  block, which is the only point where that block is stored and written back. Between points the accumulators
  live in two buffers of the kernel's own, so the invariant before point n + 1 holds them at exactly what point n
  left in them.
-/
import proofs.«127026_j42253888258789_2_alg».proof.Proof.FrameR1RunA
import proofs.«127026_j42253888258789_2_alg».proof.Proof.FrameR1RunB
import proofs.«127026_j42253888258789_2_alg».proof.Proof.FrameR1RunC

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The stores of each case cover the buffers they fill -/

theorem scover1_A_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : cond1_0 i) (hc1 : ¬cond1_1 i)
    (x0 : Vec F S1024x1 .f32) (x1 : Vec F S1024x1 .f32) (x2 : Vec F S1x8192 .f32) (x3 : Vec F S8192x64 .f32) (y : S1024x1.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S1024x1.size (by sl_kernel_rfl) y
theorem scover1_A_1 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : cond1_0 i) (hc1 : ¬cond1_1 i)
    (x0 : Vec F S1024x1 .f32) (x1 : Vec F S1024x1 .f32) (x2 : Vec F S1x8192 .f32) (x3 : Vec F S8192x64 .f32) (y : S1024x64.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S1024x64.size (by sl_kernel_rfl) y
theorem scover1_B_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) (y : S1024x1.Idx) :
    ∃ pc ∈ (kernelRun1_B c i arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.1 S1024x1.size (by sl_kernel_rfl) y
theorem scover1_B_1 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) (y : S1024x64.Idx) :
    ∃ pc ∈ (kernelRun1_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.2.1 S1024x64.size (by sl_kernel_rfl) y
theorem cover1_C_4 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) (y : S1024x64.Idx) :
    ∃ pc ∈ (kernelRun1_C c i arg2 harg2 arg3 harg3 arg4 harg4 arg5 harg5 arg6 harg6 arg7 harg7 arg8 harg8 hc0 hc1 x0 x1 x2 x3 xs0 xs1).1, y ∈ pc.1.set :=
  View.cover_of_tiledL (kernelRun1_C c i arg2 harg2 arg3 harg3 arg4 harg4 arg5 harg5 arg6 harg6 arg7 harg7 arg8 harg8 hc0 hc1 x0 x1 x2 x3 xs0 xs1).1 S1024x64.size (by sl_kernel_rfl) y
theorem scover1_C_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) (y : S1024x1.Idx) :
    ∃ pc ∈ (kernelRun1_C c i arg2 harg2 arg3 harg3 arg4 harg4 arg5 harg5 arg6 harg6 arg7 harg7 arg8 harg8 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.1 S1024x1.size (by sl_kernel_rfl) y
theorem scover1_C_1 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) (y : S1024x64.Idx) :
    ∃ pc ∈ (kernelRun1_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.2.1 S1024x64.size (by sl_kernel_rfl) y

/-! ## The core's scoped buffers as the region's invariant holds them -/

/-- A scoped buffer held whole at some contents. -/
abbrev stg (c : Dev nD) (b : Ref sig .tc) : sProp 𝕄 :=
  iprop(∃ f : Buf (Elt F) ((c : Thread nD τ).loc b), ((c : Thread nD τ).loc b) ↦{fullShare} f)

/-- The core's scoped buffers that are no staging buffer of this region: the first region's staging buffers, each at
    some contents, and the two accumulators in the states `S0`, `S1`. -/
def scoped1 (c : Dev nD) (S0 S1 : sProp 𝕄) : sProp 𝕄 :=
  iprop(stg (F := F) c cc0_stg0_0 ∗ stg (F := F) c cc0_stg0_1 ∗ stg (F := F) c cc0_stg1_0 ∗ stg (F := F) c cc0_stg2_0 ∗ stg (F := F) c cc0_stg3_0 ∗ stg (F := F) c cc0_stg3_1 ∗ stg (F := F) c cc0_stg4_0 ∗ stg (F := F) c cc0_stg4_1 ∗ stg (F := F) c cc0_stg5_0 ∗ stg (F := F) c cc0_stg5_1 ∗ S0 ∗ S1)

/-- What the launch hands the region: both accumulators at anything. -/
theorem PhiA1_eq (c : Dev nD) :
    (Pipeline.ΦA spec1 c : sProp 𝕄)
      = iprop(scoped1 c (iprop(∃ d, owns (c : Thread nD τ) scM1_0 fullShare d)) (iprop(∃ d, owns (c : Thread nD τ) scM1_1 fullShare d)) ∗ (∃ r, prngReg c r)) := by
  unfold Pipeline.ΦA scoped1; rw [scopedRest1_eq]; simp only [scM1_0, scM1_1, owns_whole]; try rfl

section
variable (V : (c : Dev nD) → (b : Ref sig .tc) → Buf (Elt F) ((c : Thread nD τ).loc b))

/-! ## What each case leaves, at the point's own memrefs and blocks -/

/-- Case A's run at point `t`. -/
def runA (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => by have h' := (hcond1_1 t).mp h; omega) (iblk1 V c 0 t) (iblk1 V c 1 t) (iblk1 V c 2 t) (iblk1 V c 3 t)

/-- What case A leaves at point `t`: the output block (nothing is stored: a placeholder nothing reads), the row-sum accumulator, the weighted-sum accumulator. -/
def caseA (c : Dev nD) (t : Fin cfg1.N) (h0 : t.val % 8 = 0) : Vec F S1024x64 .f32 × Vec F S1024x1 .f32 × Vec F S1024x64 .f32 :=
  (VO1_4.read (Elt F) (VO1_4.writes (Elt F) VO1_4.junk (runA V c t h0).1),
   VS1_0.read (Elt F) (VS1_0.writes (Elt F) VS1_0.junk (runA V c t h0).2.1),
   VS1_1.read (Elt F) (VS1_1.writes (Elt F) VS1_1.junk (runA V c t h0).2.2.1))

/-- Case B's run at point `t`. -/
def runB (c : Dev nD) (t : Fin cfg1.N) (h0 : ¬t.val % 8 = 0) (h1 : ¬t.val % 8 = 7) (xs0 : Vec F S1024x1 .f32) (xs1 : Vec F S1024x64 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) xs0 xs1

/-- What case B leaves at point `t`: the output block (nothing is stored: a placeholder nothing reads), the row-sum accumulator, the weighted-sum accumulator. -/
def caseB (c : Dev nD) (t : Fin cfg1.N) (h0 : ¬t.val % 8 = 0) (h1 : ¬t.val % 8 = 7) (xs0 : Vec F S1024x1 .f32) (xs1 : Vec F S1024x64 .f32) : Vec F S1024x64 .f32 × Vec F S1024x1 .f32 × Vec F S1024x64 .f32 :=
  (VO1_4.read (Elt F) (VO1_4.writes (Elt F) VO1_4.junk (runB V c t h0 h1 xs0 xs1).1),
   VS1_0.read (Elt F) (VS1_0.writes (Elt F) VS1_0.junk (runB V c t h0 h1 xs0 xs1).2.1),
   VS1_1.read (Elt F) (VS1_1.writes (Elt F) VS1_1.junk (runB V c t h0 h1 xs0 xs1).2.2.1))

/-- Case C's run at point `t`. -/
def runC (c : Dev nD) (t : Fin cfg1.N) (h0 : ¬t.val % 8 = 0) (h1 : t.val % 8 = 7) (xs0 : Vec F S1024x1 .f32) (xs1 : Vec F S1024x64 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1

/-- What case C leaves at point `t`: the output block (the stored quotient), the row-sum accumulator, the weighted-sum accumulator. -/
def caseC (c : Dev nD) (t : Fin cfg1.N) (h0 : ¬t.val % 8 = 0) (h1 : t.val % 8 = 7) (xs0 : Vec F S1024x1 .f32) (xs1 : Vec F S1024x64 .f32) : Vec F S1024x64 .f32 × Vec F S1024x1 .f32 × Vec F S1024x64 .f32 :=
  (VO1_4.read (Elt F) (VO1_4.writes (Elt F) VO1_4.junk (runC V c t h0 h1 xs0 xs1).1),
   VS1_0.read (Elt F) (VS1_0.writes (Elt F) VS1_0.junk (runC V c t h0 h1 xs0 xs1).2.1),
   VS1_1.read (Elt F) (VS1_1.writes (Elt F) VS1_1.junk (runC V c t h0 h1 xs0 xs1).2.2.1))

/-! ## What the buffers hold after each point -/

/-- After the body at position `n`: the output block, the row-sum accumulator and the weighted-sum accumulator —
    the case the position is in, the accumulators entering it at what position `n - 1` left. -/
def outsAt1 (c : Dev nD) : (n : ℕ) → n < cfg1.N → Vec F S1024x64 .f32 × Vec F S1024x1 .f32 × Vec F S1024x64 .f32
  | 0, hn => caseA V c ⟨0, hn⟩ (Nat.zero_mod _)
  | n + 1, hn =>
    if h0 : (n + 1) % 8 = 0 then caseA V c ⟨n + 1, hn⟩ h0
    else if h1 : (n + 1) % 8 = 7 then
      caseC V c ⟨n + 1, hn⟩ h0 h1 (outsAt1 c n (Nat.lt_of_succ_lt hn)).2.1 (outsAt1 c n (Nat.lt_of_succ_lt hn)).2.2
    else
      caseB V c ⟨n + 1, hn⟩ h0 h1 (outsAt1 c n (Nat.lt_of_succ_lt hn)).2.1 (outsAt1 c n (Nat.lt_of_succ_lt hn)).2.2

theorem outsAt1_A (c : Dev nD) (t : Fin cfg1.N) (h0 : t.val % 8 = 0) : outsAt1 V c t.val t.isLt = caseA V c t h0 := by
  obtain ⟨n, hn⟩ := t
  cases n with
  | zero => rfl
  | succ n => exact dif_pos h0

theorem outsAt1_B (c : Dev nD) (t : Fin cfg1.N) (h0 : ¬t.val % 8 = 0) (h1 : ¬t.val % 8 = 7) :
    outsAt1 V c t.val t.isLt = caseB V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The region's invariant -/

/-- Before position `n`: at the first point what the launch hands over (both accumulators at anything); afterwards
    the accumulators at exactly what the point before left in them. -/
def PhiS (c : Dev nD) : (n : ℕ) → n ≤ cfg1.N → sProp 𝕄
  | 0, _ => Pipeline.ΦA spec1 c
  | n + 1, hn => iprop(scoped1 c (owns (c : Thread nD τ) scM1_0 fullShare (outsAt1 V c n hn).2.1) (owns (c : Thread nD τ) scM1_1 fullShare (outsAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 c (owns (c : Thread nD τ) scM1_0 fullShare (outsAt1 V c n hn).2.1) (owns (c : Thread nD τ) scM1_1 fullShare (outsAt1 V c n hn).2.2) ∗ (∃ r, prngReg c r)) := rfl

theorem PhiS_pos (c : Dev nD) (n : ℕ) (h : n ≤ cfg1.N) (hz : n ≠ 0) :
    PhiS V c n h = iprop(scoped1 c (owns (c : Thread nD τ) scM1_0 fullShare (outsAt1 V c (n - 1) (by omega)).2.1) (owns (c : Thread nD τ) scM1_1 fullShare (outsAt1 V c (n - 1) (by omega)).2.2) ∗ (∃ r, prngReg c r)) := by
  cases n with
  | zero => exact absurd rfl hz
  | succ n => rfl

/-! ## The region's proof data -/

/-- The arrays as the region finds them; after the body each input's buffer at its block, the output's at what
    `outsAt1` says; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the point's position among the key tiles says which
    case it is in; the invariant hands the body the accumulators at what the point before left (at anything at the
    very first point, and the first key tile of a later query tile overwrites them unread) and takes them back at this
    point's contents; before the last key tile the output's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0]
    unfold caseA runA; (try dsimp only)
    by_cases hz : t.val = 0
    ·
      rw [PhiS_castSucc V c t, PhiS_zero V c _ _ hz, PhiA1_eq]
      unfold scoped1
      iintro ⟨⟨⟨B0, B1, B2, B3, B4, B5, B6, B7, B8, B9, HS0, HS1⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => by have h' := (hcond1_1 t).mp h; omega) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [B0 B1 B2 B3 B4 B5 B6 B7 B8 B9 HS0 HS1 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        unfold owns; iexists _; isplitr
        swap; · iexact HS1
        ipureintro; exact View.read_writes_of_cover _ _ _ _ _ (scover1_A_1 c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    ·
      rw [PhiS_castSucc V c t, PhiS_pos V c _ _ hz]
      unfold scoped1
      iintro ⟨⟨⟨B0, B1, B2, B3, B4, B5, B6, B7, B8, B9, HS0, HS1⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => by have h' := (hcond1_1 t).mp h; omega) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [B0 B1 B2 B3 B4 B5 B6 B7 B8 B9 HS0 HS1 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        unfold owns; iexists _; isplitr
        swap; · iexact HS1
        ipureintro; exact View.read_writes_of_cover _ _ _ _ _ (scover1_A_1 c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold caseC runC; (try dsimp only)
      have hz : t.val ≠ 0 := by omega
      rw [PhiS_castSucc V c t, PhiS_pos V c _ _ hz]
      unfold scoped1
      iintro ⟨⟨⟨B0, B1, B2, B3, B4, B5, B6, B7, B8, B9, HS0, HS1⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [B0 B1 B2 B3 B4 B5 B6 B7 B8 B9 HS0 HS1 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        unfold owns; iexists _; isplitr
        swap; · iexact HS1
        ipureintro; exact View.read_writes_of_cover _ _ _ _ _ (scover1_C_1 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold caseB runB; (try dsimp only)
      have hz : t.val ≠ 0 := by omega
      rw [PhiS_castSucc V c t, PhiS_pos V c _ _ hz]
      unfold scoped1
      iintro ⟨⟨⟨B0, B1, B2, B3, B4, B5, B6, B7, B8, B9, HS0, HS1⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [B0 B1 B2 B3 B4 B5 B6 B7 B8 B9 HS0 HS1 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        unfold owns; iexists _; isplitr
        swap; · iexact HS1
        ipureintro; exact View.read_writes_of_cover _ _ _ _ _ (scover1_B_1 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the accumulators' contents forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold scoped1
  iintro ⟨⟨B0, B1, B2, B3, B4, B5, B6, B7, B8, B9, HS0, HS1⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [HS0]; · iexists _; iexact HS0
  iexists _; iexact HS1

end

end Cert.KernelIdeal.Frm

end
-- ==== Proof.FrameRun.lean ====
/-
  The whole program's run: the projection kernel's region, the nine host operations that turn the destination
  scores into the row maxima and a row vector, and the attention kernel's region, one after the other on every core.
  Stated: what every unscoped buffer holds at each boundary between them — the launch contents; after a region its
  arrays at what the pipeline's write-backs leave and every other buffer as entered; after the host operations
  their fold — and that every weakly fair execution from a memory with zero counters terminates, faults nowhere,
  and ends with every unscoped buffer at the last boundary's contents. From this both the frame claim (each
  argument array walks back through the boundaries to its launch contents: nothing writes an argument) and the
  value of the result array are read.
-/
import proofs.«127026_j42253888258789_2_alg».proof.Proof.FrameR0
import proofs.«127026_j42253888258789_2_alg».proof.Proof.FrameR1
import proofs.«127026_j42253888258789_2_alg».proof.Proof.Gen.KernelIdeal.Regions

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host operations leave alone every buffer they do not write. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h

/-! ### No region and no host operation writes an argument -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-! ## The proof data family and the thread state -/

/-- No region has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back at what the
    pipeline leaves in them at exit; the generator register and the scoped buffers go into the region's invariant
    and come back out of it; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at what the
    pipeline leaves in them at exit; the generator register and the scoped buffers go into the region's invariant
    and come back out of it; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from `m` with zero counters terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame claim at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The run with the result array named: it ends at what the attention kernel's pipeline leaves in its output
    array, entered from the host operations' fold over the projection kernel's outputs. -/
theorem run_result : θ_run defs (onTc (τ := τ) (main (F := F))) ⟨m, fun _ => 0, ρ⟩ (fun r => ∀ c : Dev nD,
      r.2.mem ((c.tc : Thread nD τ).loc main_v8) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v8 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Frm

end
-- ==== Proof.Spec.lean ====
/-
  The attention layer both programs compute, written once over plain coordinates.

  From node features `h` (8192 × 256), a projection `W` (256 × 64) and an attention vector `a` (128 entries, its two
  halves scoring the source and the destination node): the projected features `proj = h · W`; the two score vectors
  `srcScore i = proj i · a[0:64]` and `dstScore j = proj j · a[64:128]`; the edge score `leaky (srcScore i + dstScore j)`
  with `leaky x = max x (slope · x)`; the row's largest score, which by monotonicity of `leaky` is
  `leaky (srcScore i + max_j dstScore j)`; the unnormalised weight `exp (score − row maximum)`; and the output row
  `(Σ_j weight i j · proj j) / Σ_j weight i j`.
-/
import Idealize.ShloMosaic.PureOps.Ideal
import Idealize.ShloMosaic.Lib.ValueIdx

noncomputable section

open scoped BigOperators

namespace Cert.Attn

open Idealize.ShloMosaic

/-- A function of two coordinates as an array of rank 2. -/
def arr2 {A B : Nat} (g : Fin A → Fin B → EReal) : (⟨2, ![A, B]⟩ : Shape).Idx → EReal := fun i => g (i 0) (i 1)

theorem arr2_ix2 {A B : Nat} (g : Fin A → Fin B → EReal) (p : Fin A) (q : Fin B) : arr2 g (ValueIdx.ix2 p q) = g p q := rfl

/-- A function of one coordinate as a column (an array with a trailing unit axis). -/
def col {A : Nat} (g : Fin A → EReal) : (⟨2, ![A, 1]⟩ : Shape).Idx → EReal := fun i => g (i 0)

theorem col_ix2 {A : Nat} (g : Fin A → EReal) (p : Fin A) (q : Fin 1) : col g (ValueIdx.ix2 p q) = g p := rfl

/-- A function of one coordinate as a row (an array with a leading unit axis). -/
def row {B : Nat} (g : Fin B → EReal) : (⟨2, ![1, B]⟩ : Shape).Idx → EReal := fun i => g (i 1)

theorem row_ix2 {B : Nat} (g : Fin B → EReal) (p : Fin 1) (q : Fin B) : row g (ValueIdx.ix2 p q) = g q := rfl

/-- The negative-side slope of the leaky rectifier: the single-precision number nearest 0.2, the same word in both programs. -/
def slope : EReal := Ideal.ofBits .f32 0x3E4CCCCD#32

/-- The leaky rectifier as a maximum: `x` where `x ≥ 0`, `slope · x` below. -/
def leaky (x : EReal) : EReal := max x (slope * x)

variable (h : Fin 8192 → Fin 256 → EReal) (W : Fin 256 → Fin 64 → EReal) (a : Fin 128 → EReal)

/-- The projected features `h · W`. -/
def proj (i : Fin 8192) (f : Fin 64) : EReal := ∑ k : Fin 256, h i k * W k f

/-- The source node's score: the projected row against the first half of `a`. -/
def srcScore (i : Fin 8192) : EReal := ∑ f : Fin 64, proj h W i f * a ⟨f.val, by omega⟩

/-- The destination node's score: the projected row against the second half of `a`. -/
def dstScore (j : Fin 8192) : EReal := ∑ f : Fin 64, proj h W j f * a ⟨64 + f.val, by omega⟩

/-- The largest destination score. -/
def dstMax : EReal := Finset.univ.sup (dstScore h W a)

/-- The largest edge score of row `i`, by monotonicity of the rectifier. -/
def rowMax (i : Fin 8192) : EReal := leaky (srcScore h W a i + dstMax h W a)

/-- The unnormalised attention weight of the edge `i → j`. -/
def weight (i j : Fin 8192) : EReal := Ideal.exp (leaky (srcScore h W a i + dstScore h W a j) - rowMax h W a i)

/-- The normaliser of row `i`. -/
def denom (i : Fin 8192) : EReal := ∑ j : Fin 8192, weight h W a i j

/-- The weighted sum of projected features of row `i`. -/
def numer (i : Fin 8192) (f : Fin 64) : EReal := ∑ j : Fin 8192, weight h W a i j * proj h W j f

/-- The layer's output. -/
def out (i : Fin 8192) (f : Fin 64) : EReal := Ideal.div (numer h W a i f) (denom h W a i)

end Cert.Attn

end
-- ==== Proof.ValR0.lean ====
/-
  Region 0 of the kernel program (the preparation call) at the ideal instance: what its three result arrays hold
  after the region, as functions of the three argument arrays the region finds.

  Each grid point `t` reads rows `1024 t … 1024 t + 1023` of the node features, the whole projection matrix and the
  whole attention vector. A matrix product into a zero accumulator, read at an entry, is the sum over the contracted
  axis; changing the float format is the identity on extended reals. So the block of projected features a point
  writes is the block of `h · W`, and the two score columns are the projected rows against the two halves of `a`.
  The eight blocks of 1024 rows tile the 8192 rows of each result: row `r` lies in the block of point `r / 1024`.
-/
import proofs.«127026_j42253888258789_2_alg».proof.Proof.FrameR0
import proofs.«127026_j42253888258789_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Val0

open Cert.KernelIdeal Cert.KernelIdeal.Gen Cert.KernelIdeal.Frm
open Idealize.ShloMosaic Idealize.ShloMosaic.TcCoe Idealize.SL.Sem
open Idealize.ShloMosaic.Pipeline (Dat)
open Idealize.ShloMosaic.ValueIdx

/-! ## The payloads at an entry -/

theorem hz : (![0, 0] : Fin 2 → Nat) = fun _ => 0 := funext fun a => by fin_cases a <;> rfl

/-- The first product (feature block times projection): the left operand's index at output entry `i` and contraction
    index `q` keeps the row of `i` and takes the contraction coordinate as its column; -/
theorem lhs₁_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
theorem lhs₁_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
/-- the right operand's takes the contraction coordinate as its row and keeps the column of `i`. -/
theorem rhs₁_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem rhs₁_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- The projected block at entry `(r, f)`: row `r` of the feature block against column `f` of the projection. -/
theorem pay1_apply (x0 : Vec Ideal S1024x256 .f32) (x1 : Vec Ideal S256x64 .f32) (r : Fin 1024) (f : Fin 64) :
    k0_pay1 (F := Ideal) x0 x1 (ix2 r f) = ∑ k : Fin 256, x0 (ix2 r k) * x1 (ix2 k f) := by
  unfold k0_pay1
  refine (Ideal.matmul_constant_zero_apply dot_S1024x256_S256x64_S1024x64_1_0_0_1_n_n none _ _ (ix2 r f)).trans ?_
  rw [← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 r f) ((contrEquiv1 dot_S1024x256_S256x64_S1024x64_1_0_0_1_n_n 256 rfl rfl).symm k) = ix2 r k := funext fun a => Fin.ext (by
    match a with
    | ⟨0, _⟩ => exact lhs₁_0 _ _
    | ⟨1, _⟩ => exact (lhs₁_1 _ _).trans hk)
  have er : dot_S1024x256_S256x64_S1024x64_1_0_0_1_n_n.rhsIdx (ix2 r f) ((contrEquiv1 dot_S1024x256_S256x64_S1024x64_1_0_0_1_n_n 256 rfl rfl).symm k) = ix2 k f := funext fun a => Fin.ext (by
    match a with
    | ⟨0, _⟩ => exact (rhs₁_0 _ _).trans hk
    | ⟨1, _⟩ => exact rhs₁_1 _ _)
  rw [el, er]
  rfl

/-- The second product (projected block times a half of the attention vector), the same reading. -/
theorem lhs₂_0 (i : S1024x1.Idx) (q : dot_S1024x64_S64x1_S1024x1_1_0_0_1_n_n.contr.Idx) :
    (dot_S1024x64_S64x1_S1024x1_1_0_0_1_n_n.lhsIdx i q 0).val = (i 0).val := by
  unfold DotDims.lhsIdx
  rw [dif_neg (show ¬(0 : Fin S1024x64.rank) ∈ dot_S1024x64_S64x1_S1024x1_1_0_0_1_n_n.lhsBatch by decide), dif_pos (show (0 : Fin S1024x64.rank) ∈ dot_S1024x64_S64x1_S1024x1_1_0_0_1_n_n.lhsNonContracting by decide)]
  rfl
theorem lhs₂_1 (i : S1024x1.Idx) (q : dot_S1024x64_S64x1_S1024x1_1_0_0_1_n_n.contr.Idx) :
    (dot_S1024x64_S64x1_S1024x1_1_0_0_1_n_n.lhsIdx i q 1).val = (q ⟨0, by decide⟩).val :=
  dot_S1024x64_S64x1_S1024x1_1_0_0_1_n_n.lhsIdx_val_of_single rfl i q
theorem rhs₂_0 (i : S1024x1.Idx) (q : dot_S1024x64_S64x1_S1024x1_1_0_0_1_n_n.contr.Idx) :
    (dot_S1024x64_S64x1_S1024x1_1_0_0_1_n_n.rhsIdx i q 0).val = (q ⟨0, by decide⟩).val :=
  dot_S1024x64_S64x1_S1024x1_1_0_0_1_n_n.rhsIdx_val_of_single rfl i q
theorem rhs₂_1 (i : S1024x1.Idx) (q : dot_S1024x64_S64x1_S1024x1_1_0_0_1_n_n.contr.Idx) :
    (dot_S1024x64_S64x1_S1024x1_1_0_0_1_n_n.rhsIdx i q 1).val = (i 1).val := by
  unfold DotDims.rhsIdx
  rw [dif_neg (show ¬(1 : Fin S64x1.rank) ∈ dot_S1024x64_S64x1_S1024x1_1_0_0_1_n_n.rhsBatch by decide), dif_pos (show (1 : Fin S64x1.rank) ∈ dot_S1024x64_S64x1_S1024x1_1_0_0_1_n_n.rhsNonContracting by decide)]
  rfl

/-- A product of a 1024 × 64 block with a 64 × 1 column into the zero accumulator, at entry `(r, q)`: row `r` of the
    block against the column. -/
theorem dot₂_apply (y : FVec Ideal S1024x64 .bf16) (z : FVec Ideal S64x1 .bf16) (r : Fin 1024) (q : Fin 1) :
    FloatOps.matmul dot_S1024x64_S64x1_S1024x1_1_0_0_1_n_n none y z (constant S1024x1 .f32 0x00000000#32) (ix2 r q)
      = ∑ f : Fin 64, y (ix2 r f) * z (ix2 f q) := by
  refine (Ideal.matmul_constant_zero_apply dot_S1024x64_S64x1_S1024x1_1_0_0_1_n_n none y z (ix2 r q)).trans ?_
  rw [← Equiv.sum_comp (contrEquiv1 dot_S1024x64_S64x1_S1024x1_1_0_0_1_n_n 64 rfl rfl).symm]
  refine Finset.sum_congr rfl fun k _ => ?_
  have hk := contrEquiv1_symm_val dot_S1024x64_S64x1_S1024x1_1_0_0_1_n_n 64 rfl rfl k
  have el : dot_S1024x64_S64x1_S1024x1_1_0_0_1_n_n.lhsIdx (ix2 r q) ((contrEquiv1 dot_S1024x64_S64x1_S1024x1_1_0_0_1_n_n 64 rfl rfl).symm k) = ix2 r k := funext fun a => Fin.ext (by
    match a with
    | ⟨0, _⟩ => exact lhs₂_0 _ _
    | ⟨1, _⟩ => exact (lhs₂_1 _ _).trans hk)
  have er : dot_S1024x64_S64x1_S1024x1_1_0_0_1_n_n.rhsIdx (ix2 r q) ((contrEquiv1 dot_S1024x64_S64x1_S1024x1_1_0_0_1_n_n 64 rfl rfl).symm k) = ix2 k q := funext fun a => Fin.ext (by
    match a with
    | ⟨0, _⟩ => exact (rhs₂_0 _ _).trans hk
    | ⟨1, _⟩ => exact rhs₂_1 _ _)
  rw [el, er]

/-- The first half of the attention vector, at row `f`: the vector at row `f`; -/
theorem half₁_apply (x2 : Vec Ideal S128x1 .f32) (f : Fin 64) (q : Fin 1) :
    extractStridedSlice S64x1 ![0, 0] x2 slices_S128x1_o0_0_S64x1 (ix2 f q) = x2 (ix2 (⟨f.val, by omega⟩ : Fin 128) (0 : Fin 1)) :=
  extractStridedSlice_apply ![0, 0] x2 slices_S128x1_o0_0_S64x1 (ix2 f q) (ix2 (⟨f.val, by omega⟩ : Fin 128) (0 : Fin 1)) (fun a => match a with
    | ⟨0, _⟩ => by show f.val = 0 + f.val; omega
    | ⟨1, _⟩ => by show (0 : Fin 1).val = 0 + q.val; omega)

/-- the second half at row `f`: the vector at row `64 + f`. -/
theorem half₂_apply (x2 : Vec Ideal S128x1 .f32) (f : Fin 64) (q : Fin 1) :
    extractStridedSlice S64x1 ![64, 0] x2 slices_S128x1_o64_0_S64x1 (ix2 f q) = x2 (ix2 (⟨64 + f.val, by omega⟩ : Fin 128) (0 : Fin 1)) :=
  extractStridedSlice_apply ![64, 0] x2 slices_S128x1_o64_0_S64x1 (ix2 f q) (ix2 (⟨64 + f.val, by omega⟩ : Fin 128) (0 : Fin 1)) (fun a => match a with
    | ⟨0, _⟩ => by show 64 + f.val = 64 + f.val; rfl
    | ⟨1, _⟩ => by show (0 : Fin 1).val = 0 + q.val; omega)

/-- The source-score block at row `r`: the projected row against the first half of the attention vector. -/
theorem pay3_apply (x0 : Vec Ideal S1024x256 .f32) (x1 : Vec Ideal S256x64 .f32) (x2 : Vec Ideal S128x1 .f32) (r : Fin 1024) (q : Fin 1) :
    k0_pay3 (F := Ideal) x0 x1 x2 (ix2 r q)
      = ∑ f : Fin 64, (∑ k : Fin 256, x0 (ix2 r k) * x1 (ix2 k f)) * x2 (ix2 (⟨f.val, by omega⟩ : Fin 128) (0 : Fin 1)) := by
  unfold k0_pay3
  refine (dot₂_apply _ _ r q).trans ?_
  refine Finset.sum_congr rfl fun f _ => ?_
  refine congrArg₂ (· * ·) ?_ ?_
  · exact pay1_apply x0 x1 r f
  · exact half₁_apply x2 f q

/-- The destination-score block at row `r`: the projected row against the second half. -/
theorem pay4_apply (x0 : Vec Ideal S1024x256 .f32) (x1 : Vec Ideal S256x64 .f32) (x2 : Vec Ideal S128x1 .f32) (r : Fin 1024) (q : Fin 1) :
    k0_pay4 (F := Ideal) x0 x1 x2 (ix2 r q)
      = ∑ f : Fin 64, (∑ k : Fin 256, x0 (ix2 r k) * x1 (ix2 k f)) * x2 (ix2 (⟨64 + f.val, by omega⟩ : Fin 128) (0 : Fin 1)) := by
  unfold k0_pay4
  refine (dot₂_apply _ _ r q).trans ?_
  refine Finset.sum_congr rfl fun f _ => ?_
  refine congrArg₂ (· * ·) ?_ ?_
  · exact pay1_apply x0 x1 r f
  · exact half₂_apply x2 f q

/-! ## The input blocks as parts of the argument arrays -/

variable (V : (c : Dev nD) → (b : Ref sig .tc) → Buf (Elt Ideal) ((c : Thread nD τ).loc b))

/-- The block indices over the grid, decided point by point: the feature window and the three result windows are at
    block `t` of the rows at point `t`; the projection and the attention vector are one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The feature block at point `t`, entry `(r, k)`: the features at row `1024 t + r`. -/
theorem blkH_apply (c : Dev nD) (t : Fin cfg0.N) (r : Fin 1024) (k : Fin 256) (hr : 1024 * t.val + r.val < 8192) :
    (iblk0 V c 0 t : Vec Ideal S1024x256 .f32) (ix2 r k) = V c main_arg0 (ix2 (⟨1024 * t.val + r.val, hr⟩ : Fin 8192) k) := by
  have hi := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 1024 + 1 * r.val = 1024 * t.val + r.val; rw [hi.1]; omega
  | ⟨1, _⟩ => show win0_0.index t (1 : Fin 2) * 256 + 1 * k.val = k.val; rw [hi.2.1]; omega

/-- The projection block at any point is the projection. -/
theorem blkW_apply (c : Dev nD) (t : Fin cfg0.N) (k : Fin 256) (f : Fin 64) :
    (iblk0 V c 1 t : Vec Ideal S256x64 .f32) (ix2 k f) = V c main_arg2 (ix2 k f) := by
  have hi := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 256 + 1 * k.val = k.val; rw [hi.2.2.1]; omega
  | ⟨1, _⟩ => show win0_1.index t (1 : Fin 2) * 64 + 1 * f.val = f.val; rw [hi.2.2.2.1]; omega

/-- The attention-vector block at any point is the attention vector. -/
theorem blkA_apply (c : Dev nD) (t : Fin cfg0.N) (g : Fin 128) (q : Fin 1) :
    (iblk0 V c 2 t : Vec Ideal S128x1 .f32) (ix2 g q) = V c main_arg3 (ix2 g q) := by
  have hi := idx_facts t
  unfold iblk0
  rw [View.read_apply]
  show V c main_arg3 _ = V c main_arg3 _
  refine congrArg (V c main_arg3) (funext fun a => Fin.ext ?_)
  match a with
  | ⟨0, _⟩ => show win0_2.index t (0 : Fin 2) * 128 + 1 * g.val = g.val; rw [hi.2.2.2.2.1]; omega
  | ⟨1, _⟩ => show win0_2.index t (1 : Fin 2) * 1 + 1 * q.val = q.val; rw [hi.2.2.2.2.2.1]; omega

/-! ## A written-back block is a block of the specification's array -/

section Entries
variable (H : Fin 8192 → Fin 256 → EReal) (W : Fin 256 → Fin 64 → EReal) (A : Fin 128 → EReal)

/-- The projected block over blocks that are rows `1024 n …` of `H`, all of `W`: at entry `y` it is the projection
    at the array entry `i` lying `n` blocks down. -/
theorem proj_entry (x0 : Vec Ideal S1024x256 .f32) (x1 : Vec Ideal S256x64 .f32) (n : Nat) (y : S1024x64.Idx) (i : S8192x64.Idx)
    (h0 : ∀ (r : Fin 1024) (k : Fin 256) (hr : 1024 * n + r.val < 8192), x0 (ix2 r k) = H ⟨1024 * n + r.val, hr⟩ k)
    (h1 : ∀ (k : Fin 256) (f : Fin 64), x1 (ix2 k f) = W k f)
    (hi0 : (i 0).val = 1024 * n + (y 0).val) (hi1 : (i 1).val = (y 1).val) :
    k0_pay1 (F := Ideal) x0 x1 y = Cert.Attn.arr2 (Cert.Attn.proj H W) i := by
  obtain ⟨r, f, rfl⟩ : ∃ (r : Fin 1024) (f : Fin 64), y = ix2 r f := ⟨y 0, y 1, eq_ix2 y⟩
  obtain ⟨p, g, rfl⟩ : ∃ (p : Fin 8192) (g : Fin 64), i = ix2 p g := ⟨i 0, i 1, eq_ix2 i⟩
  have hp : 1024 * n + r.val < 8192 := by have := p.isLt; have e : p.val = 1024 * n + r.val := hi0; omega
  obtain rfl : p = ⟨1024 * n + r.val, hp⟩ := Fin.ext hi0
  obtain rfl : g = f := Fin.ext hi1
  rw [pay1_apply, Cert.Attn.arr2_ix2]
  unfold Cert.Attn.proj
  exact Finset.sum_congr rfl fun k _ => by rw [h0 r k hp, h1 k g]

/-- The projected row of a block, entry by entry, as the specification's projection. -/
theorem proj_row (x0 : Vec Ideal S1024x256 .f32) (x1 : Vec Ideal S256x64 .f32) (n : Nat) (r : Fin 1024) (hr : 1024 * n + r.val < 8192)
    (h0 : ∀ (r : Fin 1024) (k : Fin 256) (hr : 1024 * n + r.val < 8192), x0 (ix2 r k) = H ⟨1024 * n + r.val, hr⟩ k)
    (h1 : ∀ (k : Fin 256) (f : Fin 64), x1 (ix2 k f) = W k f) (f : Fin 64) :
    (∑ k : Fin 256, x0 (ix2 r k) * x1 (ix2 k f)) = Cert.Attn.proj H W ⟨1024 * n + r.val, hr⟩ f := by
  unfold Cert.Attn.proj
  exact Finset.sum_congr rfl fun k _ => by rw [h0 r k hr, h1 k f]

/-- The source-score block at entry `y` is the source score at the array entry `n` blocks down. -/
theorem src_entry (x0 : Vec Ideal S1024x256 .f32) (x1 : Vec Ideal S256x64 .f32) (x2 : Vec Ideal S128x1 .f32) (n : Nat) (y : S1024x1.Idx) (i : S8192x1.Idx)
    (h0 : ∀ (r : Fin 1024) (k : Fin 256) (hr : 1024 * n + r.val < 8192), x0 (ix2 r k) = H ⟨1024 * n + r.val, hr⟩ k)
    (h1 : ∀ (k : Fin 256) (f : Fin 64), x1 (ix2 k f) = W k f)
    (h2 : ∀ (g : Fin 128), x2 (ix2 g (0 : Fin 1)) = A g)
    (hi0 : (i 0).val = 1024 * n + (y 0).val) :
    k0_pay3 (F := Ideal) x0 x1 x2 y = Cert.Attn.col (Cert.Attn.srcScore H W A) i := by
  obtain ⟨r, q, rfl⟩ : ∃ (r : Fin 1024) (q : Fin 1), y = ix2 r q := ⟨y 0, y 1, eq_ix2 y⟩
  obtain ⟨p, g, rfl⟩ : ∃ (p : Fin 8192) (g : Fin 1), i = ix2 p g := ⟨i 0, i 1, eq_ix2 i⟩
  have hp : 1024 * n + r.val < 8192 := by have := p.isLt; have e : p.val = 1024 * n + r.val := hi0; omega
  obtain rfl : p = ⟨1024 * n + r.val, hp⟩ := Fin.ext hi0
  rw [pay3_apply, Cert.Attn.col_ix2]
  unfold Cert.Attn.srcScore
  exact Finset.sum_congr rfl fun f _ => by rw [proj_row H W x0 x1 n r hp h0 h1 f, h2]

/-- The destination-score block likewise. -/
theorem dst_entry (x0 : Vec Ideal S1024x256 .f32) (x1 : Vec Ideal S256x64 .f32) (x2 : Vec Ideal S128x1 .f32) (n : Nat) (y : S1024x1.Idx) (i : S8192x1.Idx)
    (h0 : ∀ (r : Fin 1024) (k : Fin 256) (hr : 1024 * n + r.val < 8192), x0 (ix2 r k) = H ⟨1024 * n + r.val, hr⟩ k)
    (h1 : ∀ (k : Fin 256) (f : Fin 64), x1 (ix2 k f) = W k f)
    (h2 : ∀ (g : Fin 128), x2 (ix2 g (0 : Fin 1)) = A g)
    (hi0 : (i 0).val = 1024 * n + (y 0).val) :
    k0_pay4 (F := Ideal) x0 x1 x2 y = Cert.Attn.col (Cert.Attn.dstScore H W A) i := by
  obtain ⟨r, q, rfl⟩ : ∃ (r : Fin 1024) (q : Fin 1), y = ix2 r q := ⟨y 0, y 1, eq_ix2 y⟩
  obtain ⟨p, g, rfl⟩ : ∃ (p : Fin 8192) (g : Fin 1), i = ix2 p g := ⟨i 0, i 1, eq_ix2 i⟩
  have hp : 1024 * n + r.val < 8192 := by have := p.isLt; have e : p.val = 1024 * n + r.val := hi0; omega
  obtain rfl : p = ⟨1024 * n + r.val, hp⟩ := Fin.ext hi0
  rw [pay4_apply, Cert.Attn.col_ix2]
  unfold Cert.Attn.dstScore
  exact Finset.sum_congr rfl fun f _ => by rw [proj_row H W x0 x1 n r hp h0 h1 f, h2]

end Entries

/-- The three argument arrays the region finds, by coordinates. -/
abbrev argH (c : Dev nD) : Fin 8192 → Fin 256 → EReal := fun i k => V c main_arg0 (ix2 i k)
abbrev argW (c : Dev nD) : Fin 256 → Fin 64 → EReal := fun k f => V c main_arg2 (ix2 k f)
abbrev argA (c : Dev nD) : Fin 128 → EReal := fun r => V c main_arg3 (ix2 r 0)

/-- What point `t` writes back to the projected features is block `t` of the specification's projection. -/
theorem flushed3_eq (c : Dev nD) (t : Fin cfg0.N) :
    (dat0 (F := Ideal) V c).flushed 3 t = ((cfg0.win 3).blk t).view.read (Elt Ideal) (Cert.Attn.arr2 (Cert.Attn.proj (argH V c) (argW V c))) := by
  show (cfg0.win 3).cut (grid0.coords t) ((dat0 (F := Ideal) V c).after 3 t) = _
  rw [after0_3]
  unfold out0_3
  rw [View.canon_unit_zero hz]
  simp only [View.ld_unit_zero (S := S1024x256) hz, View.ld_unit_zero (S := S256x64) hz]
  have hi := idx_facts t
  funext j
  refine proj_entry (argH V c) (argW V c) (iblk0 V c 0 t) (iblk0 V c 1 t) t.val j (((cfg0.win 3).blk t).view.emb j)
    (fun r k hr => blkH_apply V c t r k hr) (fun k f => blkW_apply V c t k f) ?_ ?_
  · show win0_3.index t (0 : Fin 2) * 1024 + 1 * (j 0).val = 1024 * t.val + (j 0).val; rw [hi.2.2.2.2.2.2.1]; omega
  · show win0_3.index t (1 : Fin 2) * 64 + 1 * (j 1).val = (j 1).val; rw [hi.2.2.2.2.2.2.2.1]; omega

/-- What point `t` writes back to the source scores is block `t` of the specification's source-score column. -/
theorem flushed4_eq (c : Dev nD) (t : Fin cfg0.N) :
    (dat0 (F := Ideal) V c).flushed 4 t = ((cfg0.win 4).blk t).view.read (Elt Ideal) (Cert.Attn.col (Cert.Attn.srcScore (argH V c) (argW V c) (argA V c))) := by
  show (cfg0.win 4).cut (grid0.coords t) ((dat0 (F := Ideal) V c).after 4 t) = _
  rw [after0_4]
  unfold out0_4
  rw [View.canon_unit_zero hz]
  simp only [View.ld_unit_zero (S := S1024x256) hz, View.ld_unit_zero (S := S256x64) hz, View.ld_unit_zero (S := S128x1) hz]
  have hi := idx_facts t
  funext j
  refine src_entry (argH V c) (argW V c) (argA V c) (iblk0 V c 0 t) (iblk0 V c 1 t) (iblk0 V c 2 t) t.val j (((cfg0.win 4).blk t).view.emb j)
    (fun r k hr => blkH_apply V c t r k hr) (fun k f => blkW_apply V c t k f) (fun g => blkA_apply V c t g 0) ?_
  show win0_4.index t (0 : Fin 2) * 1024 + 1 * (j 0).val = 1024 * t.val + (j 0).val; rw [hi.2.2.2.2.2.2.2.2.1]; omega

/-- What point `t` writes back to the destination scores is block `t` of the specification's destination-score column. -/
theorem flushed5_eq (c : Dev nD) (t : Fin cfg0.N) :
    (dat0 (F := Ideal) V c).flushed 5 t = ((cfg0.win 5).blk t).view.read (Elt Ideal) (Cert.Attn.col (Cert.Attn.dstScore (argH V c) (argW V c) (argA V c))) := by
  show (cfg0.win 5).cut (grid0.coords t) ((dat0 (F := Ideal) V c).after 5 t) = _
  rw [after0_5]
  unfold out0_5
  rw [View.canon_unit_zero hz]
  simp only [View.ld_unit_zero (S := S1024x256) hz, View.ld_unit_zero (S := S256x64) hz, View.ld_unit_zero (S := S128x1) hz]
  have hi := idx_facts t
  funext j
  refine dst_entry (argH V c) (argW V c) (argA V c) (iblk0 V c 0 t) (iblk0 V c 1 t) (iblk0 V c 2 t) t.val j (((cfg0.win 5).blk t).view.emb j)
    (fun r k hr => blkH_apply V c t r k hr) (fun k f => blkW_apply V c t k f) (fun g => blkA_apply V c t g 0) ?_
  show win0_5.index t (0 : Fin 2) * 1024 + 1 * (j 0).val = 1024 * t.val + (j 0).val; rw [hi.2.2.2.2.2.2.2.2.2.2.1]; omega

/-! ## The blocks tile the arrays: row `r` lies in the block of point `r / 1024` -/

/-- An entry of a result array is in point `t`'s block iff each coordinate is in the block's range on its axis. -/
theorem mem_blk3 (t : Fin cfg0.N) (i : S8192x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v0_0).slice (win0_3.rect t)).set ↔ _
  rw [View.set_slice_whole, Rect.mem_set_unit]
  exact Iff.rfl
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0_1).slice (win0_4.rect t)).set ↔ _
  rw [View.set_slice_whole, Rect.mem_set_unit]
  exact Iff.rfl
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v0_2).slice (win0_5.rect t)).set ↔ _
  rw [View.set_slice_whole, Rect.mem_set_unit]
  exact Iff.rfl

/-- The grid point whose block holds row `r`. -/
def pointOf (r : Nat) (hr : r < 8192) : Fin cfg0.N := ⟨r / 1024, by rw [show cfg0.N = 8 from N_0]; omega⟩

theorem cover3 (i : S8192x64.Idx) : ∃ t : Fin cfg0.N, (cfg0.win 3).flush t = true ∧ i ∈ ((cfg0.win 3).blk t).view.set := by
  have h0 : (i 0).val < 8192 := (i 0).isLt
  have h1 : (i 1).val < 64 := (i 1).isLt
  refine ⟨pointOf (i 0).val h0, flush0_3 _, ?_⟩
  have hi := idx_facts (pointOf (i 0).val h0)
  have hv : (pointOf (i 0).val h0).val = (i 0).val / 1024 := rfl
  rw [mem_blk3]
  intro a
  match a with
  | ⟨0, _⟩ =>
    show win0_3.index (pointOf (i 0).val h0) (0 : Fin 2) * 1024 ≤ (i 0).val ∧ (i 0).val < win0_3.index (pointOf (i 0).val h0) (0 : Fin 2) * 1024 + 1024
    rw [hi.2.2.2.2.2.2.1, hv]; omega
  | ⟨1, _⟩ =>
    show win0_3.index (pointOf (i 0).val h0) (1 : Fin 2) * 64 ≤ (i 1).val ∧ (i 1).val < win0_3.index (pointOf (i 0).val h0) (1 : Fin 2) * 64 + 64
    rw [hi.2.2.2.2.2.2.2.1]; omega

theorem cover4 (i : S8192x1.Idx) : ∃ t : Fin cfg0.N, (cfg0.win 4).flush t = true ∧ i ∈ ((cfg0.win 4).blk t).view.set := by
  have h0 : (i 0).val < 8192 := (i 0).isLt
  have h1 : (i 1).val < 1 := (i 1).isLt
  refine ⟨pointOf (i 0).val h0, flush0_4 _, ?_⟩
  have hi := idx_facts (pointOf (i 0).val h0)
  have hv : (pointOf (i 0).val h0).val = (i 0).val / 1024 := rfl
  rw [mem_blk4]
  intro a
  match a with
  | ⟨0, _⟩ =>
    show win0_4.index (pointOf (i 0).val h0) (0 : Fin 2) * 1024 ≤ (i 0).val ∧ (i 0).val < win0_4.index (pointOf (i 0).val h0) (0 : Fin 2) * 1024 + 1024
    rw [hi.2.2.2.2.2.2.2.2.1, hv]; omega
  | ⟨1, _⟩ =>
    show win0_4.index (pointOf (i 0).val h0) (1 : Fin 2) * 1 ≤ (i 1).val ∧ (i 1).val < win0_4.index (pointOf (i 0).val h0) (1 : Fin 2) * 1 + 1
    rw [hi.2.2.2.2.2.2.2.2.2.1]; omega

theorem cover5 (i : S8192x1.Idx) : ∃ t : Fin cfg0.N, (cfg0.win 5).flush t = true ∧ i ∈ ((cfg0.win 5).blk t).view.set := by
  have h0 : (i 0).val < 8192 := (i 0).isLt
  have h1 : (i 1).val < 1 := (i 1).isLt
  refine ⟨pointOf (i 0).val h0, flush0_5 _, ?_⟩
  have hi := idx_facts (pointOf (i 0).val h0)
  have hv : (pointOf (i 0).val h0).val = (i 0).val / 1024 := rfl
  rw [mem_blk5]
  intro a
  match a with
  | ⟨0, _⟩ =>
    show win0_5.index (pointOf (i 0).val h0) (0 : Fin 2) * 1024 ≤ (i 0).val ∧ (i 0).val < win0_5.index (pointOf (i 0).val h0) (0 : Fin 2) * 1024 + 1024
    rw [hi.2.2.2.2.2.2.2.2.2.2.1, hv]; omega
  | ⟨1, _⟩ =>
    show win0_5.index (pointOf (i 0).val h0) (1 : Fin 2) * 1 ≤ (i 1).val ∧ (i 1).val < win0_5.index (pointOf (i 0).val h0) (1 : Fin 2) * 1 + 1
    rw [hi.2.2.2.2.2.2.2.2.2.2.2]; omega

/-! ## The three result arrays after the region -/

/-- The projected features: `h · W`. -/
theorem arr0_3 (c : Dev nD) :
    (dat0 (F := Ideal) V c).arrAt 3 cfg0.N
      = Cert.Attn.arr2 (Cert.Attn.proj (fun i k => V c main_arg0 (ValueIdx.ix2 i k)) (fun k f => V c main_arg2 (ValueIdx.ix2 k f))) :=
  (dat0 (F := Ideal) V c).arrAt_eq_of_cover 3 _ (fun t _ => flushed3_eq V c t) cover3

/-- The source scores: the projected rows against the first half of `a`. -/
theorem arr0_4 (c : Dev nD) :
    (dat0 (F := Ideal) V c).arrAt 4 cfg0.N
      = Cert.Attn.col (Cert.Attn.srcScore (fun i k => V c main_arg0 (ValueIdx.ix2 i k)) (fun k f => V c main_arg2 (ValueIdx.ix2 k f)) (fun r => V c main_arg3 (ValueIdx.ix2 r 0))) :=
  (dat0 (F := Ideal) V c).arrAt_eq_of_cover 4 _ (fun t _ => flushed4_eq V c t) cover4

/-- The destination scores: the projected rows against the second half of `a`. -/
theorem arr0_5 (c : Dev nD) :
    (dat0 (F := Ideal) V c).arrAt 5 cfg0.N
      = Cert.Attn.col (Cert.Attn.dstScore (fun i k => V c main_arg0 (ValueIdx.ix2 i k)) (fun k f => V c main_arg2 (ValueIdx.ix2 k f)) (fun r => V c main_arg3 (ValueIdx.ix2 r 0))) :=
  (dat0 (F := Ideal) V c).arrAt_eq_of_cover 5 _ (fun t _ => flushed5_eq V c t) cover5

end Cert.KernelIdeal.Val0

end
-- ==== Proof.HostVals.lean ====
/-
  What the host operations between the two kernels leave behind, read over the extended reals.

  From the column of source scores `s₁` and the column of destination scores `s₂` the host forms the largest
  destination score (a maximum from −∞ over the whole column), adds it to every source score, applies the leaky
  rectifier `max x (slope · x)` — the column of row maxima —, and lays the destination scores out as one row.
-/
import proofs.«127026_j42253888258789_2_alg».proof.Proof.Gen.KernelIdeal.Launch
import proofs.«127026_j42253888258789_2_alg».proof.Proof.Gen.KernelIdeal.Regions
import proofs.«127026_j42253888258789_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- A fold of `max` from the bottom element is the supremum. -/
theorem fold_max_bot_eq_sup {ι : Type} (S : Finset ι) (x : ι → EReal) : S.fold max ⊥ x = S.sup x := by
  classical
  induction S using Finset.induction_on with
  | empty => rfl
  | insert a S ha ih => rw [Finset.fold_insert ha, Finset.sup_insert, ih]

/-- The supremum over the indices of a column is the supremum over its row coordinate. -/
theorem sup_column (x : S8192x1.Idx → EReal) :
    Finset.univ.sup x = Finset.univ.sup (fun p : Fin 8192 => x (ix2 p 0)) := by
  refine le_antisymm (Finset.sup_le fun i _ => ?_) (Finset.sup_le fun p _ => Finset.le_sup (f := x) (Finset.mem_univ (ix2 p 0)))
  obtain ⟨p, q, rfl⟩ : ∃ (p : Fin 8192) (q : Fin 1), i = ix2 p q := ⟨i 0, i 1, eq_ix2 i⟩
  obtain rfl : q = 0 := Subsingleton.elim _ _
  exact Finset.le_sup (f := fun p : Fin 8192 => x (ix2 p 0)) (Finset.mem_univ p)

/-- The host's maximum of a column over both its axes, started from −∞: the largest entry. -/
theorem hostMax_eq_sup (x : FVec Ideal S8192x1 .f32) (j : S_.Idx) :
    Host.reduce (FloatOps.maximumf (F := Ideal) (φ := .f32)) x (constant (F := Ideal) S_ .f32 0xFF800000#32)
        reducesTo_S8192x1_S_d0_1 h_S_ j
      = Finset.univ.sup (fun p : Fin 8192 => x (ix2 p 0)) := by
  rw [Host.reduce_eq_fold, Finset.filter_true_of_mem fun i _ => funext fun b => b.elim0, constant_apply]
  have hbot : Ideal.ofBits .f32 0xFF800000#32 = (⊥ : EReal) := by simp [Ideal.ofBits, Ideal.ieee]
  rw [hbot]
  exact (fold_max_bot_eq_sup Finset.univ x).trans (sup_column x)

/-- The column the host stretch writes for the second kernel's row maxima, as a function of the two score columns. -/
def rowMaxCol (s1 s2 : FVec Ideal S8192x1 .f32) : FVec Ideal S8192x1 .f32 :=
  maximumf
    (addf s1 (broadcastInDim S8192x1 ![] bcast_S_S8192x1
      (Host.reduce (FloatOps.maximumf (F := Ideal) (φ := .f32)) s2 (constant (F := Ideal) S_ .f32 0xFF800000#32)
        reducesTo_S8192x1_S_d0_1 h_S_)))
    (mulf (broadcastInDim S8192x1 ![] bcast_S_S8192x1 (constant (F := Ideal) S_ .f32 0x3E4CCCCD#32))
      (addf s1 (broadcastInDim S8192x1 ![] bcast_S_S8192x1
        (Host.reduce (FloatOps.maximumf (F := Ideal) (φ := .f32)) s2 (constant (F := Ideal) S_ .f32 0xFF800000#32)
          reducesTo_S8192x1_S_d0_1 h_S_))))

/-- That column, entry by entry: the rectified sum of the row's source score and the largest destination score. -/
theorem rowMaxCol_eq (s1 s2 : FVec Ideal S8192x1 .f32) :
    rowMaxCol s1 s2
      = Cert.Attn.col (fun i : Fin 8192 =>
          Cert.Attn.leaky (s1 (ix2 i 0) + Finset.univ.sup (fun j : Fin 8192 => s2 (ix2 j 0)))) := by
  funext i
  obtain ⟨p, q, rfl⟩ : ∃ (p : Fin 8192) (q : Fin 1), i = ix2 p q := ⟨i 0, i 1, eq_ix2 i⟩
  obtain rfl : q = 0 := Subsingleton.elim _ _
  unfold rowMaxCol
  rw [Cert.Attn.col_ix2, maximumf_apply, mulf_apply, addf_apply,
    broadcastInDim_apply ![] bcast_S_S8192x1 _ (ix2 p 0) ix0 (fun a => a.elim0),
    broadcastInDim_apply ![] bcast_S_S8192x1 (constant (F := Ideal) S_ .f32 0x3E4CCCCD#32) (ix2 p 0) ix0 (fun a => a.elim0),
    hostMax_eq_sup, constant_apply]
  rfl

variable (V : Valuation τ sig (Elt Ideal))

/-- After the host stretch the row-maximum buffer holds, at row `i`, the rectified sum of `i`'s source score and the
    largest destination score (`s1`, `s2`: what the two score buffers held before the stretch). -/
theorem host_v6 (s1 s2 : FVec Ideal S8192x1 .f32) (h1 : V (Proc.devRef .tc main_v0_1) = s1)
    (h2 : V (Proc.devRef .tc main_v0_2) = s2) :
    (StableHlo.after (hostOps1 (F := Ideal)) V (Proc.devRef .tc main_v6) : S8192x1.Idx → EReal)
      = Cert.Attn.col (fun i : Fin 8192 =>
          Cert.Attn.leaky (s1 (ix2 i 0) + Finset.univ.sup (fun j : Fin 8192 => s2 (ix2 j 0)))) := by
  subst h1 h2
  have e : (StableHlo.after (hostOps1 (F := Ideal)) V (Proc.devRef .tc main_v6) : S8192x1.Idx → EReal)
      = rowMaxCol (V (Proc.devRef .tc main_v0_1)) (V (Proc.devRef .tc main_v0_2)) := by
    dsimp only [hostOps1]
    after_results
    rfl
  rw [e]
  exact rowMaxCol_eq _ _

/-- After the host stretch the destination-score row holds the destination scores, laid out along one row. -/
theorem host_v7 (s2 : FVec Ideal S8192x1 .f32) (h2 : V (Proc.devRef .tc main_v0_2) = s2) :
    (StableHlo.after (hostOps1 (F := Ideal)) V (Proc.devRef .tc main_v7) : S1x8192.Idx → EReal)
      = Cert.Attn.row (fun j : Fin 8192 => s2 (ix2 j 0)) := by
  subst h2
  have e : (StableHlo.after (hostOps1 (F := Ideal)) V (Proc.devRef .tc main_v7) : S1x8192.Idx → EReal)
      = shapeCast S1x8192 (V (Proc.devRef .tc main_v0_2) : S8192x1.Idx → EReal) shapeCasts_S8192x1_S1x8192 := by
    dsimp only [hostOps1]
    after_results
    rfl
  rw [e]
  funext i
  obtain ⟨p, q, rfl⟩ : ∃ (p : Fin 1) (q : Fin 8192), i = ix2 p q := ⟨i 0, i 1, eq_ix2 i⟩
  rw [Cert.Attn.row_ix2]
  refine shapeCast_apply _ shapeCasts_S8192x1_S1x8192 (ix2 p q) (ix2 q 0) ?_
  have hp : p.val = 0 := by omega
  rw [Shape.rowMajor_val_two, Shape.rowMajor_val_two]
  show q.val * 1 + 0 = p.val * 8192 + q.val
  rw [hp]; omega

/-- The host stretch leaves every buffer it does not write as it was. -/
theorem host_keep (r : Ref sig .tc) (h : r ∉ (hostOps1_W : List (Ref sig .tc))) :
    StableHlo.after (hostOps1 (F := Ideal)) V (Proc.devRef .tc r) = V (Proc.devRef .tc r) :=
  StableHlo.after_of_writes_sub hostOps1 V hostOps1_writes h

end Cert.KernelIdeal.Pay

end
-- ==== Proof.TilesR1.lean ====
/-
  The attention kernel reads, at the grid point (query tile qi, key tile kv), rows qi·1024 … qi·1024 + 1023 of the
  source scores and row maxima, and — out of the whole row of destination scores and the whole matrix of projected
  features, which it keeps resident — the key tile's 1024 columns, respectively rows. Named here: those two
  sub-blocks as loads, the array row a block row stands for, the array column a tile column stands for, and, at the
  exact instance, the arrays the region finds and the unnormalised attention weight computed from them.
-/
import proofs.«127026_j42253888258789_2_alg».proof.Proof.FrameR1Runs
import proofs.«127026_j42253888258789_2_alg».proof.Proof.Spec
import Idealize.ShloMosaic.Lib.Pipeline.Value
import Idealize.ShloMosaic.Lib.ValueIdx

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := by funext a; match a with | ⟨0, _⟩ => rfl | ⟨1, _⟩ => rfl

/-- The key tile's columns of the row of destination scores. -/
abbrev tile2 (i : grid1.Coords) (x2 : Vec F S1x8192 .f32) : Vec F S1x1024 .f32 :=
  View.ld x2 (Rect.unit (s := S1x8192) (k1_off1 i) S1x1024.size (k1_off1_inb i))
/-- The key tile's rows of the projected features. -/
abbrev tile3 (i : grid1.Coords) (x3 : Vec F S8192x64 .f32) : Vec F S1024x64 .f32 :=
  View.ld x3 (Rect.unit (s := S8192x64) (k1_off2 i) S1024x64.size (k1_off2_inb i))

/-- The array row that row `r` of the query tile's block is, at point `t` (query tile `t / 8`). -/
def rowOf (t : Fin cfg1.N) (r : Fin 1024) : Fin 8192 :=
  ⟨(t.val / 8) * 1024 + r.val, by have h : t.val < 64 := lt_of_lt_of_eq t.isLt (show cfg1.N = 64 from N_1); omega⟩
/-- The array column that column `j` of the key tile is, at point `t` (key tile `t % 8`). -/
def colOf (t : Fin cfg1.N) (j : Fin 1024) : Fin 8192 := ⟨(t.val % 8) * 1024 + j.val, by omega⟩

end Cert.KernelIdeal.Frm

namespace Cert.KernelIdeal.Val1

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b)) (c : Dev nD)

/-- The source scores, the row maxima, the destination scores and the projected features as the region finds them. -/
def S1 (i : Fin 8192) : EReal := (V c main_v0_1 : S8192x1.Idx → EReal) (ix2 i 0)
def Mx (i : Fin 8192) : EReal := (V c main_v6 : S8192x1.Idx → EReal) (ix2 i 0)
def S2 (j : Fin 8192) : EReal := (V c main_v7 : S1x8192.Idx → EReal) (ix2 0 j)
def WH (j : Fin 8192) (f : Fin 64) : EReal := (V c main_v0_0 : S8192x64.Idx → EReal) (ix2 j f)
/-- The unnormalised attention weight of the edge `i → j`. -/
def P (i j : Fin 8192) : EReal := Ideal.exp (Cert.Attn.leaky (S1 V c i + S2 V c j) - Mx V c i)

end Cert.KernelIdeal.Val1

end
-- ==== Proof.EntryR1.lean ====
/-
  What the attention kernel's region finds in its four input arrays, as functions of the program's arguments: the
  projected features and the source scores as the projection kernel's region left them (the host operations in
  between do not write them), the destination scores laid out as one row, and the row maxima the host operations
  compute from the two score vectors — so that the unnormalised weight the kernel computes from these arrays is the
  specification's.
-/
import proofs.«127026_j42253888258789_2_alg».proof.Proof.FrameRun
import proofs.«127026_j42253888258789_2_alg».proof.Proof.ValR0
import proofs.«127026_j42253888258789_2_alg».proof.Proof.HostVals
import proofs.«127026_j42253888258789_2_alg».proof.Proof.TilesR1

noncomputable section

open scoped BigOperators

namespace Cert.KernelIdeal.Val1

open Cert.KernelIdeal Cert.KernelIdeal.Gen Cert.KernelIdeal.Frm
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The three float argument arrays by coordinates. -/
abbrev hh : Fin 8192 → Fin 256 → EReal := fun i k => m ((c.tc : Thread nD τ).loc main_arg0) (ix2 i k)
abbrev ww : Fin 256 → Fin 64 → EReal := fun k f => m ((c.tc : Thread nD τ).loc main_arg2) (ix2 k f)
abbrev aa : Fin 128 → EReal := fun r => m ((c.tc : Thread nD τ).loc main_arg3) (ix2 r 0)

/-- The projected features reach the second region as the first left them. -/
theorem entry_v0_0 : (V2 m ρ c main_v0_0 : S8192x64.Idx → EReal) = Cert.Attn.arr2 (Cert.Attn.proj (hh m c) (ww m c)) :=
  (W2_of m ρ c main_v0_0 (by decide)).trans ((W1_arr m ρ c 3).trans (Val0.arr0_3 (V0 m ρ) c))

/-- So do the source scores. -/
theorem entry_v0_1 : (V2 m ρ c main_v0_1 : S8192x1.Idx → EReal) = Cert.Attn.col (Cert.Attn.srcScore (hh m c) (ww m c) (aa m c)) :=
  (W2_of m ρ c main_v0_1 (by decide)).trans ((W1_arr m ρ c 4).trans (Val0.arr0_4 (V0 m ρ) c))

/-- The destination scores after the first region. -/
theorem mid_v0_2 : (W1 m ρ c (Proc.devRef .tc main_v0_2) : S8192x1.Idx → EReal) = Cert.Attn.col (Cert.Attn.dstScore (hh m c) (ww m c) (aa m c)) :=
  (W1_arr m ρ c 5).trans (Val0.arr0_5 (V0 m ρ) c)
theorem mid_v0_1 : (W1 m ρ c (Proc.devRef .tc main_v0_1) : S8192x1.Idx → EReal) = Cert.Attn.col (Cert.Attn.srcScore (hh m c) (ww m c) (aa m c)) :=
  (W1_arr m ρ c 4).trans (Val0.arr0_4 (V0 m ρ) c)

/-- The host operations lay the destination scores out as one row, -/
theorem entry_v7 : (V2 m ρ c main_v7 : S1x8192.Idx → EReal) = Cert.Attn.row (Cert.Attn.dstScore (hh m c) (ww m c) (aa m c)) :=
  (Pay.host_v7 (W1 m ρ c) _ (mid_v0_2 m ρ c)).trans rfl

/-- and compute each row's largest edge score from the largest destination score. -/
theorem entry_v6 : (V2 m ρ c main_v6 : S8192x1.Idx → EReal) = Cert.Attn.col (Cert.Attn.rowMax (hh m c) (ww m c) (aa m c)) :=
  (Pay.host_v6 (W1 m ρ c) _ _ (mid_v0_1 m ρ c) (mid_v0_2 m ρ c)).trans rfl

theorem S1_eq (i : Fin 8192) : S1 (V2 m ρ) c i = Cert.Attn.srcScore (hh m c) (ww m c) (aa m c) i := by
  unfold S1; rw [entry_v0_1]; rfl
theorem Mx_eq (i : Fin 8192) : Mx (V2 m ρ) c i = Cert.Attn.rowMax (hh m c) (ww m c) (aa m c) i := by
  unfold Mx; rw [entry_v6]; rfl
theorem S2_eq (j : Fin 8192) : S2 (V2 m ρ) c j = Cert.Attn.dstScore (hh m c) (ww m c) (aa m c) j := by
  unfold S2; rw [entry_v7]; rfl
theorem WH_eq (j : Fin 8192) (f : Fin 64) : WH (V2 m ρ) c j f = Cert.Attn.proj (hh m c) (ww m c) j f := by
  unfold WH; rw [entry_v0_0]; rfl

/-- The weight the kernel computes from what it finds is the specification's. -/
theorem P_eq (i j : Fin 8192) : P (V2 m ρ) c i j = Cert.Attn.weight (hh m c) (ww m c) (aa m c) i j := by
  unfold P Cert.Attn.weight; rw [S1_eq, S2_eq, Mx_eq]

end Cert.KernelIdeal.Val1

end
-- ==== Proof.PiecesR1.lean ====
/-
  What each case of the attention kernel's body leaves in the two accumulators and the output block, as the body's
  arithmetic applied to the blocks it read: at the first key tile the row sums start from the zero vector and the
  weighted sums from the zero matrix; at a later tile they start from what the tile before left; at the last tile the
  output block is the quotient of the finished weighted sums by the finished row sums, row by row.
-/
import proofs.«127026_j42253888258789_2_alg».proof.Proof.FrameR1
import proofs.«127026_j42253888258789_2_alg».proof.Proof.TilesR1

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hzc : (![0, 0] : Fin S1024x1.rank → Nat) = fun _ => 0 := hz2
theorem hzm : (![0, 0] : Fin S1024x64.rank → Nat) = fun _ => 0 := hz2

/-! ## On any memrefs and contents -/

theorem pieceA_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : cond1_0 i) (hc1 : ¬cond1_1 i)
    (x0 : Vec F S1024x1 .f32) (x1 : Vec F S1024x1 .f32) (x2 : Vec F S1x8192 .f32) (x3 : Vec F S8192x64 .f32) :
    VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.1) = k1_pay6 x0 x1 (tile2 i x2) (k1_pay3 (F := F)) := by
  rw [View.read_writes_eq_canon _ _ _ (scover1_A_0 c i arg2 harg2 arg3 harg3 arg4 harg4 arg5 harg5 arg6 harg6 arg7 harg7 arg8 harg8 hc0 hc1 x0 x1 x2 x3)]
  unfold kernelRun1_A
  dsimp only
  sl_unfold_run_names
  rw [View.canon_cons_unit_zero hz2]
  simp only [View.readAt_eq_ld, harg2.read_unread, harg3.read_unread, harg4.read_unread, harg5.read_unread, harg7.read_unread, harg8.read_unread, View.ld_unit_zero (S := S1024x1) hzc, View.ld_unit_zero (S := S1024x64) hzm, View.readCov_unit_zero (S := S1024x1) _ hzc, View.readCov_unit_zero (S := S1024x64) _ hzm]

theorem pieceA_1 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : cond1_0 i) (hc1 : ¬cond1_1 i)
    (x0 : Vec F S1024x1 .f32) (x1 : Vec F S1024x1 .f32) (x2 : Vec F S1x8192 .f32) (x3 : Vec F S8192x64 .f32) :
    VS1_1.read (Elt F) (VS1_1.writes (Elt F) VS1_1.junk (kernelRun1_A c i arg2 harg2 arg3 harg3 arg4 harg4 arg5 harg5 arg6 harg6 arg7 harg7 arg8 harg8 hc0 hc1 x0 x1 x2 x3).2.2.1) = k1_pay1 (k1_pay7 x0 x1 (tile2 i x2) (tile3 i x3)) (k1_pay4 (F := F)) := by
  rw [View.read_writes_eq_canon _ _ _ (scover1_A_1 c i arg2 harg2 arg3 harg3 arg4 harg4 arg5 harg5 arg6 harg6 arg7 harg7 arg8 harg8 hc0 hc1 x0 x1 x2 x3)]
  unfold kernelRun1_A
  dsimp only
  sl_unfold_run_names
  rw [View.canon_cons_unit_zero hz2]
  simp only [View.readAt_eq_ld, harg2.read_unread, harg3.read_unread, harg4.read_unread, harg5.read_unread, harg7.read_unread, harg8.read_unread, View.ld_unit_zero (S := S1024x1) hzc, View.ld_unit_zero (S := S1024x64) hzm, View.readCov_unit_zero (S := S1024x1) _ hzc, View.readCov_unit_zero (S := S1024x64) _ hzm]

theorem pieceB_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) :
    VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0 xs1).2.1) = k1_pay6 x0 x1 (tile2 i x2) xs0 := by
  rw [View.read_writes_eq_canon _ _ _ (scover1_B_0 c i arg2 harg2 arg3 harg3 arg4 harg4 arg5 harg5 arg6 harg6 arg7 harg7 arg8 harg8 hc0 hc1 x0 x1 x2 x3 xs0 xs1)]
  unfold kernelRun1_B
  dsimp only
  sl_unfold_run_names
  rw [View.canon_cons_unit_zero hz2]
  simp only [View.readAt_eq_ld, harg2.read_unread, harg3.read_unread, harg4.read_unread, harg5.read_unread, harg7.read_unread, harg8.read_unread, View.ld_unit_zero (S := S1024x1) hzc, View.ld_unit_zero (S := S1024x64) hzm, View.readCov_unit_zero (S := S1024x1) _ hzc, View.readCov_unit_zero (S := S1024x64) _ hzm]

theorem pieceB_1 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) :
    VS1_1.read (Elt F) (VS1_1.writes (Elt F) VS1_1.junk (kernelRun1_B c i arg2 harg2 arg3 harg3 arg4 harg4 arg5 harg5 arg6 harg6 arg7 harg7 arg8 harg8 hc0 hc1 x0 x1 x2 x3 xs0 xs1).2.2.1) = k1_pay1 (k1_pay7 x0 x1 (tile2 i x2) (tile3 i x3)) xs1 := by
  rw [View.read_writes_eq_canon _ _ _ (scover1_B_1 c i arg2 harg2 arg3 harg3 arg4 harg4 arg5 harg5 arg6 harg6 arg7 harg7 arg8 harg8 hc0 hc1 x0 x1 x2 x3 xs0 xs1)]
  unfold kernelRun1_B
  dsimp only
  sl_unfold_run_names
  rw [View.canon_cons_unit_zero hz2]
  simp only [View.readAt_eq_ld, harg2.read_unread, harg3.read_unread, harg4.read_unread, harg5.read_unread, harg7.read_unread, harg8.read_unread, View.ld_unit_zero (S := S1024x1) hzc, View.ld_unit_zero (S := S1024x64) hzm, View.readCov_unit_zero (S := S1024x1) _ hzc, View.readCov_unit_zero (S := S1024x64) _ hzm]

theorem pieceC_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) :
    VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0 xs1).2.1) = k1_pay6 x0 x1 (tile2 i x2) xs0 := by
  rw [View.read_writes_eq_canon _ _ _ (scover1_C_0 c i arg2 harg2 arg3 harg3 arg4 harg4 arg5 harg5 arg6 harg6 arg7 harg7 arg8 harg8 hc0 hc1 x0 x1 x2 x3 xs0 xs1)]
  unfold kernelRun1_C
  dsimp only
  sl_unfold_run_names
  rw [View.canon_cons_unit_zero hz2]
  simp only [View.readAt_eq_ld, harg2.read_unread, harg3.read_unread, harg4.read_unread, harg5.read_unread, harg7.read_unread, harg8.read_unread, View.ld_unit_zero (S := S1024x1) hzc, View.ld_unit_zero (S := S1024x64) hzm, View.readCov_unit_zero (S := S1024x1) _ hzc, View.readCov_unit_zero (S := S1024x64) _ hzm]

theorem pieceC_1 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) :
    VS1_1.read (Elt F) (VS1_1.writes (Elt F) VS1_1.junk (kernelRun1_C c i arg2 harg2 arg3 harg3 arg4 harg4 arg5 harg5 arg6 harg6 arg7 harg7 arg8 harg8 hc0 hc1 x0 x1 x2 x3 xs0 xs1).2.2.1) = k1_pay1 (k1_pay7 x0 x1 (tile2 i x2) (tile3 i x3)) xs1 := by
  rw [View.read_writes_eq_canon _ _ _ (scover1_C_1 c i arg2 harg2 arg3 harg3 arg4 harg4 arg5 harg5 arg6 harg6 arg7 harg7 arg8 harg8 hc0 hc1 x0 x1 x2 x3 xs0 xs1)]
  unfold kernelRun1_C
  dsimp only
  sl_unfold_run_names
  rw [View.canon_cons_unit_zero hz2]
  simp only [View.readAt_eq_ld, harg2.read_unread, harg3.read_unread, harg4.read_unread, harg5.read_unread, harg7.read_unread, harg8.read_unread, View.ld_unit_zero (S := S1024x1) hzc, View.ld_unit_zero (S := S1024x64) hzm, View.readCov_unit_zero (S := S1024x1) _ hzc, View.readCov_unit_zero (S := S1024x64) _ hzm]

theorem pieceC_4 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S8192x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i)
    (x0 : Vec F S1024x1 .f32) (x1 : Vec F S1024x1 .f32) (x2 : Vec F S1x8192 .f32) (x3 : Vec F S8192x64 .f32) (xs0 : Vec F S1024x1 .f32) (xs1 : Vec F S1024x64 .f32) :
    VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0 xs1).1) = k1_pay2 (k1_pay1 (k1_pay7 x0 x1 (tile2 i x2) (tile3 i x3)) xs1) (k1_pay6 x0 x1 (tile2 i x2) xs0) := by
  rw [View.read_writes_eq_canon _ _ _ (cover1_C_4 c i arg2 harg2 arg3 harg3 arg4 harg4 arg5 harg5 arg6 harg6 arg7 harg7 arg8 harg8 hc0 hc1 x0 x1 x2 x3 xs0 xs1)]
  unfold kernelRun1_C
  dsimp only
  sl_unfold_run_names
  rw [View.canon_cons_unit_zero hz2]
  simp only [View.readAt_eq_ld, harg2.read_unread, harg3.read_unread, harg4.read_unread, harg5.read_unread, harg7.read_unread, harg8.read_unread, View.ld_unit_zero (S := S1024x1) hzc, View.ld_unit_zero (S := S1024x64) hzm, View.readCov_unit_zero (S := S1024x1) _ hzc, View.readCov_unit_zero (S := S1024x64) _ hzm]

/-! ## At a grid point's own memrefs and blocks -/

section
variable (V : (c : Dev nD) → (b : Ref sig .tc) → Buf (Elt F) ((c : Thread nD τ).loc b))

/-- The key tile's destination scores and projected features, out of the blocks the point reads. -/
abbrev t2 (c : Dev nD) (t : Fin cfg1.N) : Vec F S1x1024 .f32 := tile2 (grid1.coords t) (iblk1 V c 2 t)
abbrev t3 (c : Dev nD) (t : Fin cfg1.N) : Vec F S1024x64 .f32 := tile3 (grid1.coords t) (iblk1 V c 3 t)

set_option maxHeartbeats 4000000 in
theorem caseA_1 (c : Dev nD) (t : Fin cfg1.N) (h0 : t.val % 8 = 0) :
    (caseA V c t h0).2.1 = k1_pay6 (iblk1 V c 0 t) (iblk1 V c 1 t) (t2 V c t) (k1_pay3 (F := F)) := by
  unfold caseA runA; exact pieceA_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => by have h' := (hcond1_1 t).mp h; omega) (iblk1 V c 0 t) (iblk1 V c 1 t) (iblk1 V c 2 t) (iblk1 V c 3 t)
set_option maxHeartbeats 4000000 in
theorem caseA_2 (c : Dev nD) (t : Fin cfg1.N) (h0 : t.val % 8 = 0) :
    (caseA V c t h0).2.2 = k1_pay1 (k1_pay7 (iblk1 V c 0 t) (iblk1 V c 1 t) (t2 V c t) (t3 V c t)) (k1_pay4 (F := F)) := by
  unfold caseA runA; exact pieceA_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => by have h' := (hcond1_1 t).mp h; omega) (iblk1 V c 0 t) (iblk1 V c 1 t) (iblk1 V c 2 t) (iblk1 V c 3 t)
set_option maxHeartbeats 4000000 in
theorem caseB_1 (c : Dev nD) (t : Fin cfg1.N) (h0 : ¬t.val % 8 = 0) (h1 : ¬t.val % 8 = 7) (xs0 : Vec F S1024x1 .f32) (xs1 : Vec F S1024x64 .f32) :
    (caseB V c t h0 h1 xs0 xs1).2.1 = k1_pay6 (iblk1 V c 0 t) (iblk1 V c 1 t) (t2 V c t) xs0 := by
  unfold caseB runB; exact pieceB_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) xs0 xs1
set_option maxHeartbeats 4000000 in
theorem caseB_2 (c : Dev nD) (t : Fin cfg1.N) (h0 : ¬t.val % 8 = 0) (h1 : ¬t.val % 8 = 7) (xs0 : Vec F S1024x1 .f32) (xs1 : Vec F S1024x64 .f32) :
    (caseB V c t h0 h1 xs0 xs1).2.2 = k1_pay1 (k1_pay7 (iblk1 V c 0 t) (iblk1 V c 1 t) (t2 V c t) (t3 V c t)) xs1 := by
  unfold caseB runB; exact pieceB_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) xs0 xs1
set_option maxHeartbeats 4000000 in
theorem caseC_1 (c : Dev nD) (t : Fin cfg1.N) (h0 : ¬t.val % 8 = 0) (h1 : t.val % 8 = 7) (xs0 : Vec F S1024x1 .f32) (xs1 : Vec F S1024x64 .f32) :
    (caseC V c t h0 h1 xs0 xs1).2.1 = k1_pay6 (iblk1 V c 0 t) (iblk1 V c 1 t) (t2 V c t) xs0 := by
  unfold caseC runC; exact pieceC_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1
set_option maxHeartbeats 4000000 in
theorem caseC_2 (c : Dev nD) (t : Fin cfg1.N) (h0 : ¬t.val % 8 = 0) (h1 : t.val % 8 = 7) (xs0 : Vec F S1024x1 .f32) (xs1 : Vec F S1024x64 .f32) :
    (caseC V c t h0 h1 xs0 xs1).2.2 = k1_pay1 (k1_pay7 (iblk1 V c 0 t) (iblk1 V c 1 t) (t2 V c t) (t3 V c t)) xs1 := by
  unfold caseC runC; exact pieceC_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1
set_option maxHeartbeats 4000000 in
/-- At the last key tile the output block is the finished weighted sums over the finished row sums. -/
theorem caseC_0 (c : Dev nD) (t : Fin cfg1.N) (h0 : ¬t.val % 8 = 0) (h1 : t.val % 8 = 7) (xs0 : Vec F S1024x1 .f32) (xs1 : Vec F S1024x64 .f32) :
    (caseC V c t h0 h1 xs0 xs1).1 = k1_pay2 (caseC V c t h0 h1 xs0 xs1).2.2 (caseC V c t h0 h1 xs0 xs1).2.1 := by
  rw [caseC_1, caseC_2]
  unfold caseC runC; exact pieceC_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1

end

end Cert.KernelIdeal.Frm

end
-- ==== Proof.BlocksR1.lean ====
/-
  The attention region's blocks, read at coordinates.

  At the grid point `t` (query tile `t / 8`, key tile `t % 8`) the blocks of the source scores and of the row maxima
  are rows `(t / 8) · 1024 …` of their columns; the destination scores and the projected features are resident whole,
  and the body takes the key tile's 1024 columns, respectively rows, at offset `(t % 8) · 1024`.
-/
import proofs.«127026_j42253888258789_2_alg».proof.Proof.TilesR1
import Idealize.ShloMosaic.Lib.Pipeline.Value
import Idealize.ShloMosaic.Lib.ValueIdx

set_option maxRecDepth 16384

noncomputable section

namespace Cert.KernelIdeal.Val1

open Idealize.ShloMosaic Idealize.ShloMosaic.TcCoe Idealize.ShloMosaic.ValueIdx Idealize.SL.Sem
open Cert.KernelIdeal Cert.KernelIdeal.Gen Cert.KernelIdeal.Frm

/-- The printed block indices and tile offsets, decided once over the 8 × 8 grid. -/
theorem idx_facts1 : ∀ t : Fin cfg1.N,
    win1_0.index t (0 : Fin 2) = t.val / 8 ∧ win1_0.index t (1 : Fin 2) = 0
    ∧ win1_1.index t (0 : Fin 2) = t.val / 8 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ k1_off1 (grid1.coords t) (0 : Fin 2) = 0 ∧ k1_off1 (grid1.coords t) (1 : Fin 2) = (t.val % 8) * 1024
    ∧ k1_off2 (grid1.coords t) (0 : Fin 2) = (t.val % 8) * 1024 ∧ k1_off2 (grid1.coords t) (1 : Fin 2) = 0 :=
  (by decide +kernel : ∀ t : Fin grid1.N, _)

variable (V : (c : Dev nD) → (b : Ref sig .tc) → Buf (Elt Ideal) ((c : Thread nD τ).loc b)) (c : Dev nD)

/-- Row `r` of the query tile's block of source scores is row `(t / 8) · 1024 + r` of the column. -/
theorem blk1_0 (t : Fin cfg1.N) (r : Fin 1024) :
    (iblk1 V c 0 t : S1024x1.Idx → EReal) (ix2 r 0) = S1 V c (rowOf t r) := by
  obtain ⟨e0, e1, -⟩ := idx_facts1 t
  show (V c main_v0_1 : S8192x1.Idx → EReal) (((cfg1.win 0).blk t).view.emb (ix2 r 0))
    = (V c main_v0_1 : S8192x1.Idx → EReal) (ix2 (rowOf t r) 0)
  refine congrArg _ (funext fun a => Fin.ext ?_)
  match a with
  | ⟨0, _⟩ => show win1_0.index t (0 : Fin 2) * 1024 + 1 * r.val = (t.val / 8) * 1024 + r.val; omega
  | ⟨1, _⟩ => show win1_0.index t (1 : Fin 2) * 1 + 1 * 0 = 0; omega

/-- Row `r` of the query tile's block of row maxima is row `(t / 8) · 1024 + r` of the column. -/
theorem blk1_1 (t : Fin cfg1.N) (r : Fin 1024) :
    (iblk1 V c 1 t : S1024x1.Idx → EReal) (ix2 r 0) = Mx V c (rowOf t r) := by
  obtain ⟨-, -, e0, e1, -⟩ := idx_facts1 t
  show (V c main_v6 : S8192x1.Idx → EReal) (((cfg1.win 1).blk t).view.emb (ix2 r 0))
    = (V c main_v6 : S8192x1.Idx → EReal) (ix2 (rowOf t r) 0)
  refine congrArg _ (funext fun a => Fin.ext ?_)
  match a with
  | ⟨0, _⟩ => show win1_1.index t (0 : Fin 2) * 1024 + 1 * r.val = (t.val / 8) * 1024 + r.val; omega
  | ⟨1, _⟩ => show win1_1.index t (1 : Fin 2) * 1 + 1 * 0 = 0; omega

/-- Column `j` of the key tile of destination scores is column `(t % 8) · 1024 + j` of the resident row. -/
theorem tile2_blk (t : Fin cfg1.N) (j : Fin 1024) :
    (tile2 (grid1.coords t) (iblk1 V c 2 t) : S1x1024.Idx → EReal) (ix2 0 j) = S2 V c (colOf t j) := by
  obtain ⟨-, -, -, -, e0, e1, -, -, o0, o1, -⟩ := idx_facts1 t
  show (V c main_v7 : S1x8192.Idx → EReal) (((cfg1.win 2).blk t).view.emb
      ((Rect.unit (s := S1x8192) (k1_off1 (grid1.coords t)) S1x1024.size (k1_off1_inb (grid1.coords t))).emb (ix2 0 j)))
    = (V c main_v7 : S1x8192.Idx → EReal) (ix2 0 (colOf t j))
  refine congrArg _ (funext fun a => Fin.ext ?_)
  match a with
  | ⟨0, _⟩ =>
    show win1_2.index t (0 : Fin 2) * 1 + 1 * (k1_off1 (grid1.coords t) (0 : Fin 2) + 1 * 0) = 0
    omega
  | ⟨1, _⟩ =>
    show win1_2.index t (1 : Fin 2) * 8192 + 1 * (k1_off1 (grid1.coords t) (1 : Fin 2) + 1 * j.val) = (t.val % 8) * 1024 + j.val
    omega

/-- Row `j` of the key tile of projected features is row `(t % 8) · 1024 + j` of the resident matrix. -/
theorem tile3_blk (t : Fin cfg1.N) (j : Fin 1024) (f : Fin 64) :
    (tile3 (grid1.coords t) (iblk1 V c 3 t) : S1024x64.Idx → EReal) (ix2 j f) = WH V c (colOf t j) f := by
  obtain ⟨-, -, -, -, -, -, e0, e1, -, -, o0, o1⟩ := idx_facts1 t
  show (V c main_v0_0 : S8192x64.Idx → EReal) (((cfg1.win 3).blk t).view.emb
      ((Rect.unit (s := S8192x64) (k1_off2 (grid1.coords t)) S1024x64.size (k1_off2_inb (grid1.coords t))).emb (ix2 j f)))
    = (V c main_v0_0 : S8192x64.Idx → EReal) (ix2 (colOf t j) f)
  refine congrArg _ (funext fun a => Fin.ext ?_)
  match a with
  | ⟨0, _⟩ =>
    show win1_3.index t (0 : Fin 2) * 8192 + 1 * (k1_off2 (grid1.coords t) (0 : Fin 2) + 1 * j.val) = (t.val % 8) * 1024 + j.val
    omega
  | ⟨1, _⟩ =>
    show win1_3.index t (1 : Fin 2) * 64 + 1 * (k1_off2 (grid1.coords t) (1 : Fin 2) + 1 * f.val) = f.val
    omega

end Cert.KernelIdeal.Val1

end
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.PayR1.lean ====
/-
  One key tile of the attention kernel, read entry by entry over the extended reals.

  For a tile of 1024 query rows and 1024 key columns the kernel forms the unnormalised weights
  `exp (leaky (s₁ r + s₂ j) − m r)` from the column of source scores `s₁`, the row of destination scores `s₂`
  and the column of row maxima `m`; adds each row's sum of weights to the running normaliser; multiplies the
  weights into the tile's projected features; adds that product to the running numerator; and, after the last
  tile, divides the numerator by the normaliser. Each lemma below reads one of these values at coordinates.
-/
import proofs.«127026_j42253888258789_2_alg».proof.Proof.Gen.KernelIdeal.Skeleton
import proofs.«127026_j42253888258789_2_alg».proof.Proof.Spec
import proofs.«127026_j42253888258789_2_alg».proof.Proof.LibColumn
import proofs.«127026_j42253888258789_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The exponential of a vector, read at an index. -/
theorem exp_apply {s : Shape} {φ : FTy} (a : FVec Ideal s φ) (i : s.Idx) : exp a i = Ideal.exp (a i) := rfl

/-- The weight of the edge `r → j` inside a tile: the exponential of the rectified score less the row's maximum. -/
theorem pay5_apply (v7 v9 : Vec Ideal S1024x1 .f32) (v12 : Vec Ideal S1x1024 .f32) (r j : Fin 1024) :
    k1_pay5 (F := Ideal) v7 v9 v12 (ix2 r j)
      = Ideal.exp (Cert.Attn.leaky (v7 (ix2 r 0) + v12 (ix2 0 j)) - v9 (ix2 r 0)) := by
  unfold k1_pay5
  rw [exp_apply, subf_apply, maximumf_apply, mulf_apply, addf_apply, broadcast_apply, shapeCast_self, shapeCast_self,
    shapeCast_self, ColumnLayout.broadcastTo_a1_ab_apply, ColumnLayout.broadcastTo_a1_ab_apply, broadcastTo_1b_ab_apply]
  rfl

/-- The row-sum over a tile's columns, as a sum over the column coordinate. -/
theorem rowSum_apply (src : FVec Ideal S1024x1024 .f32) (r : Fin 1024) :
    multiReduction (F := Ideal) .add [1] S1024 src 0x00000000#32 reduces_S1024x1024_S1024 (.inl rfl) rfl (ix1 r)
      = ∑ j : Fin 1024, src (ix2 r j) := by
  refine (Ideal.multiReduction_add_single src 0x00000000#32 reduces_S1024x1024_S1024 (.inl rfl) rfl (ix1 r)).trans ?_
  refine Finset.sum_congr rfl fun k _ => congrArg src (funext fun a => Fin.ext ?_)
  match a with
  | ⟨0, _⟩ => rfl
  | ⟨1, _⟩ => rfl

/-- The running normaliser after a tile: its value before, plus the tile's row sum of weights. -/
theorem pay6_apply (v7 v9 : Vec Ideal S1024x1 .f32) (v12 : Vec Ideal S1x1024 .f32) (v26 : Vec Ideal S1024x1 .f32)
    (r : Fin 1024) :
    k1_pay6 (F := Ideal) v7 v9 v12 v26 (ix2 r 0)
      = v26 (ix2 r 0) + ∑ j : Fin 1024, k1_pay5 (F := Ideal) v7 v9 v12 (ix2 r j) := by
  unfold k1_pay6
  rw [shapeCast_self, addf_apply, ColumnLayout.shapeCast_a_a1_apply, rowSum_apply]

/-- The tile's contribution to the numerator: the weights multiplied into the tile's projected features. -/
theorem pay7_apply (v7 v9 : Vec Ideal S1024x1 .f32) (v12 : Vec Ideal S1x1024 .f32) (v15 : Vec Ideal S1024x64 .f32)
    (r : Fin 1024) (f : Fin 64) :
    k1_pay7 (F := Ideal) v7 v9 v12 v15 (ix2 r f)
      = ∑ j : Fin 1024, k1_pay5 (F := Ideal) v7 v9 v12 (ix2 r j) * v15 (ix2 j f) := by
  unfold k1_pay7
  rw [shapeCast_self]
  exact PlainDot.matmul_zero_apply (M := 1024) (K := 1024) (N := 64) none
    (truncf .bf16 (k1_pay5 (F := Ideal) v7 v9 v12) bitsLt_bf16_f32) (truncf .bf16 v15 bitsLt_bf16_f32) r f

/-- The running numerator after a tile: its value before, plus the tile's contribution. -/
theorem pay1_apply (v35 : FVec Ideal S1024x64 .f32) (v36 : Vec Ideal S1024x64 .f32) (r : Fin 1024) (f : Fin 64) :
    k1_pay1 (F := Ideal) v35 v36 (ix2 r f) = v36 (ix2 r f) + v35 (ix2 r f) := by
  unfold k1_pay1
  rw [shapeCast_self, addf_apply]

/-- The output entry: the numerator divided by the row's normaliser. -/
theorem pay2_apply (v44 : Vec Ideal S1024x64 .f32) (v45 : Vec Ideal S1024x1 .f32) (r : Fin 1024) (f : Fin 64) :
    k1_pay2 (F := Ideal) v44 v45 (ix2 r f) = Ideal.div (v44 (ix2 r f)) (v45 (ix2 r 0)) := by
  unfold k1_pay2
  rw [divf_apply, ColumnLayout.broadcastTo_a1_ab_apply]

/-- The normaliser starts at zero. -/
theorem pay3_apply (i : S1024x1.Idx) : k1_pay3 (F := Ideal) i = 0 := by
  unfold k1_pay3
  rw [shapeCast_self, broadcast_apply]
  exact Ideal.ofBits_zero_f32

/-- The numerator starts at zero. -/
theorem pay4_apply (i : S1024x64.Idx) : k1_pay4 (F := Ideal) i = 0 := by
  unfold k1_pay4
  rw [shapeCast_self, broadcast_apply]
  exact Ideal.ofBits_zero_f32

end Cert.KernelIdeal.Pay

end
-- ==== Proof.Tiles.lean ====
/-
  A sum over 8192 columns, taken eight tiles of 1024 columns at a time.

  Column `j` of tile `kv` at offset `jj` is `kv · 1024 + jj`. The sum over all columns is the sum over the tiles of
  each tile's sum; `tileSum g n` is the partial sum over the first `n` tiles, which grows by one tile's sum at a time.
-/
import Mathlib.Algebra.BigOperators.Fin
import Mathlib.Data.Fintype.BigOperators
import Mathlib.Logic.Equiv.Fin.Basic

open scoped BigOperators

namespace Cert.Attn

variable {M : Type*} [AddCommMonoid M]

/-- The sum over the first `n` tiles. -/
def tileSum (g : Fin 8192 → M) (n : ℕ) (hn : n ≤ 8) : M :=
  ∑ kv : Fin n, ∑ jj : Fin 1024, g ⟨kv.val * 1024 + jj.val, by have := kv.isLt; have := jj.isLt; omega⟩

theorem tileSum_zero (g : Fin 8192 → M) : tileSum g 0 (Nat.zero_le 8) = 0 := by
  unfold tileSum
  exact Finset.sum_empty

theorem tileSum_succ (g : Fin 8192 → M) (n : ℕ) (hn : n < 8) :
    tileSum g (n + 1) hn
      = tileSum g n (Nat.le_of_lt hn) + ∑ jj : Fin 1024, g ⟨n * 1024 + jj.val, by have := jj.isLt; omega⟩ := by
  unfold tileSum
  rw [Fin.sum_univ_castSucc]
  rfl

/-- All eight tiles: the sum over every column. -/
theorem sum_tiles (g : Fin 8192 → M) :
    ∑ kv : Fin 8, ∑ jj : Fin 1024, g ⟨kv.val * 1024 + jj.val, by have := kv.isLt; have := jj.isLt; omega⟩
      = ∑ j : Fin 8192, g j := by
  rw [← Finset.sum_product' (s := Finset.univ) (t := Finset.univ)
    (f := fun (kv : Fin 8) (jj : Fin 1024) => g ⟨kv.val * 1024 + jj.val, by have := kv.isLt; have := jj.isLt; omega⟩)]
  rw [Finset.univ_product_univ]
  refine Fintype.sum_equiv (finProdFinEquiv (m := 8) (n := 1024)) _ _ fun x => ?_
  refine congrArg g (Fin.ext ?_)
  show x.1.val * 1024 + x.2.val = (finProdFinEquiv x).val
  rw [finProdFinEquiv_apply_val]
  omega

theorem tileSum_eight (g : Fin 8192 → M) : tileSum g 8 le_rfl = ∑ j, g j := sum_tiles g

end Cert.Attn
-- ==== Proof.AccumR1.lean ====
/-
  The attention kernel's two accumulators after every grid point, and the output block it stores at the last key
  tile.

  A grid point is (query tile, key tile), the key tile running fastest. Within one query tile the row-sum accumulator
  holds, for each of the tile's 1024 rows, the sum of the row's unnormalised weights over the columns of the key tiles
  met so far, and the weighted-sum accumulator the same sums against the projected features: at the first key tile
  both start from zero, and every later key tile adds its 1024 columns to what the tile before left. The array row a
  block row stands for does not change inside a query tile, and only the association of a sum is used. After the
  eighth key tile the sums run over all 8192 columns, and the stored output row is their quotient.
-/
import proofs.«127026_j42253888258789_2_alg».proof.Proof.PiecesR1
import proofs.«127026_j42253888258789_2_alg».proof.Proof.BlocksR1
import proofs.«127026_j42253888258789_2_alg».proof.Proof.PayR1
import proofs.«127026_j42253888258789_2_alg».proof.Proof.Tiles

set_option maxRecDepth 16384

noncomputable section

/-! ## The accumulators after every grid point -/

namespace Cert.KernelIdeal.Val1

open Cert.KernelIdeal Cert.KernelIdeal.Gen Cert.KernelIdeal.Frm Cert.KernelIdeal.Pay Idealize.ShloMosaic Idealize.ShloMosaic.TcCoe
  Idealize.ShloMosaic.ValueIdx Idealize.SL.Sem Cert.Attn

open scoped BigOperators

/-- Partial tile sums of equal functions over equal numbers of tiles are equal. -/
theorem tileSum_eq {M : Type*} [AddCommMonoid M] (g g' : Fin 8192 → M) (n n' : ℕ) (hn : n ≤ 8) (hn' : n' ≤ 8)
    (e : n = n') (eg : g = g') : tileSum g n hn = tileSum g' n' hn' := by
  subst e; subst eg; rfl

variable (V : (c : Dev nD) → (b : Ref sig .tc) → Buf (Elt Ideal) ((c : Thread nD τ).loc b)) (c : Dev nD)

/-- Inside a tile the weight at (r, j) is the weight of the edge from the block row's array row to the tile column's
    array column. -/
theorem weight_tile (t : Fin cfg1.N) (r j : Fin 1024) :
    k1_pay5 (F := Ideal) (iblk1 V c 0 t) (iblk1 V c 1 t) (t2 V c t) (ix2 r j) = P V c (rowOf t r) (colOf t j) := by
  refine (pay5_apply (iblk1 V c 0 t) (iblk1 V c 1 t) (t2 V c t) r j).trans ?_
  unfold P
  rw [← blk1_0 V c t r, ← blk1_1 V c t r, ← tile2_blk V c t j]

/-- A tile adds to the row-sum accumulator the sum of the row's weights over the tile's columns. -/
theorem rowsum_tile (t : Fin cfg1.N) (r : Fin 1024) (x : Vec Ideal S1024x1 .f32) :
    k1_pay6 (F := Ideal) (iblk1 V c 0 t) (iblk1 V c 1 t) (t2 V c t) x (ix2 r 0)
      = x (ix2 r 0) + ∑ jj : Fin 1024, P V c (rowOf t r) (colOf t jj) := by
  refine (pay6_apply (iblk1 V c 0 t) (iblk1 V c 1 t) (t2 V c t) x r).trans ?_
  exact congrArg (fun z => x (ix2 r 0) + z) (Finset.sum_congr rfl fun j _ => weight_tile V c t r j)

/-- A tile adds to the weighted-sum accumulator the sum of the row's weights against the tile's projected features. -/
theorem wsum_tile (t : Fin cfg1.N) (r : Fin 1024) (f : Fin 64) (x : Vec Ideal S1024x64 .f32) :
    k1_pay1 (F := Ideal) (k1_pay7 (F := Ideal) (iblk1 V c 0 t) (iblk1 V c 1 t) (t2 V c t) (t3 V c t)) x (ix2 r f)
      = x (ix2 r f) + ∑ jj : Fin 1024, P V c (rowOf t r) (colOf t jj) * WH V c (colOf t jj) f := by
  refine (pay1_apply (k1_pay7 (F := Ideal) (iblk1 V c 0 t) (iblk1 V c 1 t) (t2 V c t) (t3 V c t)) x r f).trans ?_
  refine congrArg (fun z => x (ix2 r f) + z) ?_
  refine (pay7_apply (iblk1 V c 0 t) (iblk1 V c 1 t) (t2 V c t) (t3 V c t) r f).trans ?_
  exact Finset.sum_congr rfl fun j _ =>
    congrArg₂ (fun p q : EReal => p * q) (weight_tile V c t r j) (tile3_blk V c t j f)

/-- After position n, row r of the row-sum accumulator holds the sum of the row's weights over the key tiles met so
    far in this query tile, and row r of the weighted-sum accumulator the same sums against the projected features. -/
def AccAt (n : ℕ) (hn : n < cfg1.N) (r : Fin 1024) : Prop :=
  ((outsAt1 V c n hn).2.1 : S1024x1.Idx → EReal) (ix2 r 0)
      = tileSum (fun j => P V c (rowOf ⟨n, hn⟩ r) j) (n % 8 + 1) (by omega)
  ∧ ∀ f : Fin 64, ((outsAt1 V c n hn).2.2 : S1024x64.Idx → EReal) (ix2 r f)
      = tileSum (fun j => P V c (rowOf ⟨n, hn⟩ r) j * WH V c j f) (n % 8 + 1) (by omega)

/-- One tile more: an accumulator that entered the point at the partial sum over the earlier tiles of the query tile
    leaves it at the partial sum with this tile included. -/
theorem add_tile (g : Fin 8192 → EReal) (t : Fin cfg1.N) (x : EReal) (hx : x = tileSum g (t.val % 8) (by omega)) :
    x + ∑ jj : Fin 1024, g (colOf t jj) = tileSum g (t.val % 8 + 1) (by omega) := by
  refine Eq.trans ?_ (tileSum_succ g (t.val % 8) (by omega)).symm
  exact congrArg (fun z => z + ∑ jj : Fin 1024, g (colOf t jj)) hx

/-- The position before, inside one query tile, has the same array rows and one key tile fewer. -/
theorem rowOf_pred (t : Fin cfg1.N) (h0 : ¬t.val % 8 = 0) (r : Fin 1024) :
    rowOf ⟨t.val - 1, Nat.lt_of_le_of_lt (Nat.sub_le _ _) t.isLt⟩ r = rowOf t r := by
  unfold rowOf
  exact Fin.ext (by show (t.val - 1) / 8 * 1024 + r.val = t.val / 8 * 1024 + r.val; omega)

/-- The step: from what the position before left (needed only past the first key tile) to this position. -/
theorem acc_step (t : Fin cfg1.N) (r : Fin 1024)
    (ih : ¬t.val % 8 = 0 → AccAt V c (t.val - 1) (Nat.lt_of_le_of_lt (Nat.sub_le _ _) t.isLt) r) :
    AccAt V c t.val t.isLt r := by
  by_cases h0 : t.val % 8 = 0
  · -- the first key tile: both accumulators start from zero
    have hA := outsAt1_A V c t h0
    have e1 : (outsAt1 V c t.val t.isLt).2.1 = k1_pay6 (F := Ideal) (iblk1 V c 0 t) (iblk1 V c 1 t) (t2 V c t) (k1_pay3 (F := Ideal)) :=
      (congrArg (fun p => p.2.1) hA).trans (caseA_1 V c t h0)
    have e2 : (outsAt1 V c t.val t.isLt).2.2
        = k1_pay1 (F := Ideal) (k1_pay7 (F := Ideal) (iblk1 V c 0 t) (iblk1 V c 1 t) (t2 V c t) (t3 V c t)) (k1_pay4 (F := Ideal)) :=
      (congrArg (fun p => p.2.2) hA).trans (caseA_2 V c t h0)
    refine ⟨?_, fun f => ?_⟩
    · refine (congrFun e1 (ix2 r 0)).trans ?_
      refine (rowsum_tile V c t r (k1_pay3 (F := Ideal))).trans ?_
      exact add_tile (fun j => P V c (rowOf t r) j) t _
        ((pay3_apply (ix2 r 0)).trans ((tileSum_zero _).symm.trans (tileSum_eq _ _ _ _ _ _ h0.symm rfl)))
    · refine (congrFun e2 (ix2 r f)).trans ?_
      refine (wsum_tile V c t r f (k1_pay4 (F := Ideal))).trans ?_
      exact add_tile (fun j => P V c (rowOf t r) j * WH V c j f) t _
        ((pay4_apply (ix2 r f)).trans ((tileSum_zero _).symm.trans (tileSum_eq _ _ _ _ _ _ h0.symm rfl)))
  · obtain ⟨ih1, ih2⟩ := ih h0
    have hrow := rowOf_pred t h0 r
    have hcnt : (t.val - 1) % 8 + 1 = t.val % 8 := by omega
    by_cases h1 : t.val % 8 = 7
    · -- the last key tile
      have hC := outsAt1_C V c t h0 h1
      have e1 := (congrArg (fun p => p.2.1) hC).trans (caseC_1 V c t h0 h1 _ _)
      have e2 := (congrArg (fun p => p.2.2) hC).trans (caseC_2 V c t h0 h1 _ _)
      refine ⟨?_, fun f => ?_⟩
      · refine (congrFun e1 (ix2 r 0)).trans ?_
        refine (rowsum_tile V c t r _).trans ?_
        exact add_tile (fun j => P V c (rowOf t r) j) t _
          (ih1.trans (tileSum_eq _ _ _ _ _ _ hcnt (by rw [hrow])))
      · refine (congrFun e2 (ix2 r f)).trans ?_
        refine (wsum_tile V c t r f _).trans ?_
        exact add_tile (fun j => P V c (rowOf t r) j * WH V c j f) t _
          ((ih2 f).trans (tileSum_eq _ _ _ _ _ _ hcnt (by rw [hrow])))
    · -- a middle key tile
      have hB := outsAt1_B V c t h0 h1
      have e1 := (congrArg (fun p => p.2.1) hB).trans (caseB_1 V c t h0 h1 _ _)
      have e2 := (congrArg (fun p => p.2.2) hB).trans (caseB_2 V c t h0 h1 _ _)
      refine ⟨?_, fun f => ?_⟩
      · refine (congrFun e1 (ix2 r 0)).trans ?_
        refine (rowsum_tile V c t r _).trans ?_
        exact add_tile (fun j => P V c (rowOf t r) j) t _
          (ih1.trans (tileSum_eq _ _ _ _ _ _ hcnt (by rw [hrow])))
      · refine (congrFun e2 (ix2 r f)).trans ?_
        refine (wsum_tile V c t r f _).trans ?_
        exact add_tile (fun j => P V c (rowOf t r) j * WH V c j f) t _
          ((ih2 f).trans (tileSum_eq _ _ _ _ _ _ hcnt (by rw [hrow])))

/-- By induction over the positions. -/
theorem acc_nat : ∀ (n : ℕ) (hn : n < cfg1.N) (r : Fin 1024), AccAt V c n hn r := by
  intro n
  induction n with
  | zero => exact fun hn r => acc_step V c ⟨0, hn⟩ r (fun h => absurd (Nat.zero_mod 8) h)
  | succ n ih => exact fun hn r => acc_step V c ⟨n + 1, hn⟩ r (fun _ => ih (Nat.lt_of_succ_lt hn) r)

/-- After the body at position t, row r of the row-sum accumulator is the sum of the row's weights over the key tiles
    up to this one, and row r of the weighted-sum accumulator the same sums against the projected features. -/
theorem acc_at (t : Fin cfg1.N) (r : Fin 1024) :
    ((outsAt1 V c t.val t.isLt).2.1 : S1024x1.Idx → EReal) (ix2 r 0)
        = Cert.Attn.tileSum (fun j => P V c (rowOf t r) j) (t.val % 8 + 1) (by omega)
    ∧ ∀ f : Fin 64, ((outsAt1 V c t.val t.isLt).2.2 : S1024x64.Idx → EReal) (ix2 r f)
        = Cert.Attn.tileSum (fun j => P V c (rowOf t r) j * WH V c j f) (t.val % 8 + 1) (by omega) :=
  acc_nat V c t.val t.isLt r

/-- At the last key tile the stored output row is the weighted sum over all columns divided by the sum of the weights
    over all columns. -/
theorem out_last (t : Fin cfg1.N) (h : t.val % 8 = 7) (r : Fin 1024) (f : Fin 64) :
    ((outsAt1 V c t.val t.isLt).1 : S1024x64.Idx → EReal) (ix2 r f)
      = Ideal.div (∑ j : Fin 8192, P V c (rowOf t r) j * WH V c j f) (∑ j : Fin 8192, P V c (rowOf t r) j) := by
  have h0 : ¬t.val % 8 = 0 := by omega
  have hC := outsAt1_C V c t h0 h
  obtain ⟨a1, a2⟩ := acc_at V c t r
  have e0 : (outsAt1 V c t.val t.isLt).1
      = k1_pay2 (F := Ideal) (outsAt1 V c t.val t.isLt).2.2 (outsAt1 V c t.val t.isLt).2.1 := by
    rw [hC]; exact caseC_0 V c t h0 h _ _
  refine (congrFun e0 (ix2 r f)).trans ?_
  refine (pay2_apply (outsAt1 V c t.val t.isLt).2.2 (outsAt1 V c t.val t.isLt).2.1 r f).trans ?_
  have hcnt : t.val % 8 + 1 = 8 := by omega
  have b1 := a1.trans ((tileSum_eq _ _ _ _ _ le_rfl hcnt rfl).trans (tileSum_eight _))
  have b2 := (a2 f).trans ((tileSum_eq _ _ _ _ _ le_rfl hcnt rfl).trans (tileSum_eight _))
  exact congrArg₂ Ideal.div b2 b1

end Cert.KernelIdeal.Val1

end
-- ==== Proof.ValR1Array.lean ====
/-
  The attention region's output array from its blocks, at the ideal instance.

  The grid is eight query tiles by eight key tiles, point `t = 8 · qi + kv`. The output window's block is 1024 rows
  of the 8192 × 64 result, at block index `qi`, and it is written back only at the last key tile, `kv = 7`. So if, at
  every such point, the block the body leaves is rows `1024 qi …` of a function `G` of the array coordinates, the
  array ends as `G`: row `i` lies in the block written back at the point `8 · (i / 1024) + 7`.
-/
import proofs.«127026_j42253888258789_2_alg».proof.Proof.FrameR1
import proofs.«127026_j42253888258789_2_alg».proof.Proof.TilesR1
import proofs.«127026_j42253888258789_2_alg».proof.Proof.Spec
import Idealize.ShloMosaic.Lib.Pipeline.Value
import Idealize.ShloMosaic.Lib.ValueIdx

noncomputable section

open scoped BigOperators

namespace Cert.KernelIdeal.Val1

open Cert.KernelIdeal Cert.KernelIdeal.Gen Cert.KernelIdeal.Frm
open Idealize.ShloMosaic Idealize.ShloMosaic.TcCoe Idealize.SL.Sem
open Idealize.ShloMosaic.Pipeline (Dat)
open Idealize.ShloMosaic.ValueIdx

/-- The output window's block index over the grid, decided point by point: the query tile on the rows, zero on the
    columns. -/
theorem outIdx_facts : ∀ t : Fin cfg1.N, win1_4.index t (0 : Fin 2) = t.val / 8 ∧ win1_4.index t (1 : Fin 2) = 0 :=
  (by decide +kernel : ∀ t : Fin grid1.N, _)

/-- A block whose entries are rows `1024 n …` of `G`, read at entry `y`, is `G` at the array entry `n` blocks down. -/
theorem outBlk_entry (G : Fin 8192 → Fin 64 → EReal) (X : Vec Ideal S1024x64 .f32) (n : Nat) (y : S1024x64.Idx) (i : S8192x64.Idx)
    (hX : ∀ (r : Fin 1024) (f : Fin 64) (hr : n * 1024 + r.val < 8192), X (ix2 r f) = G ⟨n * 1024 + r.val, hr⟩ f)
    (hi0 : (i 0).val = n * 1024 + (y 0).val) (hi1 : (i 1).val = (y 1).val) :
    X y = Cert.Attn.arr2 G i := by
  obtain ⟨r, f, rfl⟩ : ∃ (r : Fin 1024) (f : Fin 64), y = ix2 r f := ⟨y 0, y 1, eq_ix2 y⟩
  obtain ⟨p, g, rfl⟩ : ∃ (p : Fin 8192) (g : Fin 64), i = ix2 p g := ⟨i 0, i 1, eq_ix2 i⟩
  have hp : n * 1024 + r.val < 8192 := by have := p.isLt; have e : p.val = n * 1024 + r.val := hi0; omega
  obtain rfl : p = ⟨n * 1024 + r.val, hp⟩ := Fin.ext hi0
  obtain rfl : g = f := Fin.ext hi1
  rw [Cert.Attn.arr2_ix2]
  exact hX r g hp

variable (V : (c : Dev nD) → (b : Ref sig .tc) → Buf (Elt Ideal) ((c : Thread nD τ).loc b))

/-- What a point that writes back writes is its block of `G`. -/
theorem outFlushed_eq (c : Dev nD) (G : Fin 8192 → Fin 64 → EReal)
    (hlast : ∀ t : Fin cfg1.N, t.val % 8 = 7 → ∀ (r : Fin 1024) (f : Fin 64),
      ((outsAt1 V c t.val t.isLt).1 : S1024x64.Idx → EReal) (ValueIdx.ix2 r f) = G (rowOf t r) f)
    (t : Fin cfg1.N) (hf : (cfg1.win 4).flush t = true) :
    (dat1 (F := Ideal) V c).flushed 4 t = ((cfg1.win 4).blk t).view.read (Elt Ideal) (Cert.Attn.arr2 G) := by
  have h7 : t.val % 8 = 7 := (flush1_4 t).mp hf
  have hi := outIdx_facts t
  show (cfg1.win 4).cut (grid1.coords t) ((dat1 (F := Ideal) V c).after 4 t) = _
  rw [after1_4]
  funext j
  refine outBlk_entry G ((outsAt1 V c t.val t.isLt).1) (t.val / 8) j (((cfg1.win 4).blk t).view.emb j)
    (fun r f hr => hlast t h7 r f) ?_ ?_
  · show win1_4.index t (0 : Fin 2) * 1024 + 1 * (j 0).val = t.val / 8 * 1024 + (j 0).val; rw [hi.1]; omega
  · show win1_4.index t (1 : Fin 2) * 64 + 1 * (j 1).val = (j 1).val; rw [hi.2]; omega

/-- An entry of the result array is in point `t`'s block iff each coordinate is in the block's range on its axis. -/
theorem outMem_blk (t : Fin cfg1.N) (i : S8192x64.Idx) :
    i ∈ ((cfg1.win 4).blk t).view.set ↔ ∀ a : Fin 2, win1_4.index t a * S1024x64.size a ≤ (i a).val ∧ (i a).val < win1_4.index t a * S1024x64.size a + S1024x64.size a := by
  show i ∈ ((View.whole main_v8).slice (win1_4.rect t)).set ↔ _
  rw [View.set_slice_whole, Rect.mem_set_unit]
  exact Iff.rfl

/-- The last key tile's point of the query tile holding row `r`. -/
def outLastOf (r : Nat) (hr : r < 8192) : Fin cfg1.N := ⟨r / 1024 * 8 + 7, by rw [show cfg1.N = 64 from N_1]; omega⟩

/-- Every entry of the result array is in the block some point writes back. -/
theorem outCover (i : S8192x64.Idx) : ∃ t : Fin cfg1.N, (cfg1.win 4).flush t = true ∧ i ∈ ((cfg1.win 4).blk t).view.set := by
  have h0 : (i 0).val < 8192 := (i 0).isLt
  have h1 : (i 1).val < 64 := (i 1).isLt
  have hv : (outLastOf (i 0).val h0).val = (i 0).val / 1024 * 8 + 7 := rfl
  refine ⟨outLastOf (i 0).val h0, (flush1_4 _).mpr (by rw [hv]; omega), ?_⟩
  have hi := outIdx_facts (outLastOf (i 0).val h0)
  rw [outMem_blk]
  intro a
  match a with
  | ⟨0, _⟩ =>
    show win1_4.index (outLastOf (i 0).val h0) (0 : Fin 2) * 1024 ≤ (i 0).val ∧ (i 0).val < win1_4.index (outLastOf (i 0).val h0) (0 : Fin 2) * 1024 + 1024
    rw [hi.1, hv]; omega
  | ⟨1, _⟩ =>
    show win1_4.index (outLastOf (i 0).val h0) (1 : Fin 2) * 64 ≤ (i 1).val ∧ (i 1).val < win1_4.index (outLastOf (i 0).val h0) (1 : Fin 2) * 64 + 64
    rw [hi.2]; omega

/-- The result array after the region is `G`, given that each last-key-tile point leaves its rows of `G`. -/
theorem arr1_4_of (c : Dev nD) (G : Fin 8192 → Fin 64 → EReal)
    (hlast : ∀ t : Fin cfg1.N, t.val % 8 = 7 → ∀ (r : Fin 1024) (f : Fin 64),
      ((outsAt1 V c t.val t.isLt).1 : S1024x64.Idx → EReal) (ValueIdx.ix2 r f) = G (rowOf t r) f) :
    (dat1 (F := Ideal) V c).arrAt 4 cfg1.N = Cert.Attn.arr2 G :=
  (dat1 (F := Ideal) V c).arrAt_eq_of_cover 4 _ (fun t hf => outFlushed_eq V c G hlast t hf) outCover

end Cert.KernelIdeal.Val1

end
-- ==== Proof.ValKernel.lean ====
/-
  The kernel program's result: after the attention kernel's region the result array holds, at row i and feature f,
  the weighted sum Σ_j weight i j · proj j f divided by the row sum Σ_j weight i j — the accumulators' closed forms
  after the last key tile, read through the blocks the region writes back — and, what the region finds in its
  input arrays being the specification's projected features, scores and row maxima, this is the specification's
  output.
-/
import proofs.«127026_j42253888258789_2_alg».proof.Proof.EntryR1
import proofs.«127026_j42253888258789_2_alg».proof.Proof.AccumR1
import proofs.«127026_j42253888258789_2_alg».proof.Proof.ValR1Array

noncomputable section

open scoped BigOperators

namespace Cert.KernelIdeal.Val1

open Cert.KernelIdeal Cert.KernelIdeal.Gen Cert.KernelIdeal.Frm
open Idealize.ShloMosaic Idealize.ShloMosaic.TcCoe Idealize.SL.Sem Idealize.ShloMosaic.ValueIdx

variable (m : (ℓ : Loc nD τ sig) → Buf (Elt Ideal) ℓ) (ρ : Dev nD → PrngReg)

/-- What the attention kernel's pipeline leaves in the result array. -/
theorem result_arr (c : Dev nD) :
    (dat1 (F := Ideal) (V2 m ρ) c).arrAt 4 cfg1.N = Cert.Attn.arr2 (Cert.Attn.out (hh m c) (ww m c) (aa m c)) := by
  refine (arr1_4_of (V2 m ρ) c
    (fun i f => Ideal.div (∑ j : Fin 8192, P (V2 m ρ) c i j * WH (V2 m ρ) c j f) (∑ j : Fin 8192, P (V2 m ρ) c i j))
    (fun t h r f => out_last (V2 m ρ) c t h r f)).trans ?_
  refine congrArg Cert.Attn.arr2 (funext fun i => funext fun f => ?_)
  unfold Cert.Attn.out Cert.Attn.numer Cert.Attn.denom
  simp only [P_eq, WH_eq]

/-- The kernel program's run with its result named by the specification. -/
theorem run_out : θ_run defs (onTc (τ := τ) (main (F := Ideal))) ⟨m, fun _ => 0, ρ⟩ (fun r => ∀ c : Dev nD,
      r.2.mem ((c.tc : Thread nD τ).loc main_v8) = Cert.Attn.arr2 (Cert.Attn.out (hh m c) (ww m c) (aa m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_arr m ρ c), (h c).2⟩) (run_result (F := Ideal) m ρ)

end Cert.KernelIdeal.Val1

end
-- ==== Proof.RefMath.lean ====
/-
  The reference's own arrangement of the attention layer, and why it is the specification's on finite inputs.

  The reference computes the same projected features and the same two score vectors as the specification. It differs in
  three places. Its rectifier chooses by the sign, where the specification takes the larger of x and slope · x: the
  two agree because 0 ≤ slope ≤ 1. Its row maximum is the largest rectified edge score of the row, where the
  specification rectifies the source score plus the largest destination score: the two agree because the rectifier
  is monotone, so the largest rectified score sits at a destination with the largest score. And it divides every weight
  by the row's normaliser before the weighted sum of projected features, where the specification divides the finished
  sum once: over the reals, with a positive normaliser, (Σ_j (u_j / d) · p_j) = (Σ_j u_j · p_j) / d. Every step is an
  identity of real numbers, which is why the inputs are taken finite.
-/
import proofs.«127026_j42253888258789_2_alg».proof.Proof.Spec
import Idealize.ShloMosaic.PureOps.Ideal.Laws

noncomputable section

open scoped BigOperators

namespace Cert.Attn

open Idealize.ShloMosaic

/-! ## The reference's arrangement -/

/-- The reference's rectifier: x where 0 ≤ x, slope · x elsewhere, as a choice on a comparison with zero. -/
def refLeaky (x : EReal) : EReal :=
  Scalar.select (Ideal.cmp .oge x (Ideal.ofBits .f32 0x00000000#32)) x (slope * x)

section Arrangement

variable (h : Fin 8192 → Fin 256 → EReal) (W : Fin 256 → Fin 64 → EReal) (a : Fin 128 → EReal)

/-- The rectified score of the edge i → j. -/
def refScore (i j : Fin 8192) : EReal := refLeaky (srcScore h W a i + dstScore h W a j)

/-- The row's largest rectified score: the running maximum over the row started from −∞, then once more against −∞. -/
def refRowMax (i : Fin 8192) : EReal :=
  max (Ideal.ofBits .f32 0xFF800000#32)
    (Finset.univ.fold max (Ideal.ofBits .f32 0xFF800000#32) fun j : Fin 8192 => refScore h W a i j)

/-- The unnormalised weight of the edge i → j. -/
def refWeight (i j : Fin 8192) : EReal := Ideal.exp (refScore h W a i j - refRowMax h W a i)

/-- The row's normaliser: the sum of its weights, started from zero. -/
def refDenom (i : Fin 8192) : EReal := Ideal.ofBits .f32 0x00000000#32 + ∑ j : Fin 8192, refWeight h W a i j

/-- The reference's output: the normalised weights against the projected features. -/
def refOut (i : Fin 8192) (f : Fin 64) : EReal :=
  ∑ j : Fin 8192, Ideal.div (refWeight h W a i j) (refDenom h W a i) * proj h W j f

end Arrangement

/-! ## Real numbers inside the extended reals -/

/-- The inclusion of the reals commutes with finite sums. -/
theorem coe_sum {ι : Type} (s : Finset ι) (g : ι → ℝ) : ((∑ i ∈ s, g i : ℝ) : EReal) = ∑ i ∈ s, (g i : EReal) := by
  classical
  induction s using Finset.induction_on with
  | empty => simp
  | insert b s hb ih => rw [Finset.sum_insert hb, Finset.sum_insert hb, EReal.coe_add, ih]

/-- The inclusion of the reals commutes with the larger of two. -/
theorem coe_max (x y : ℝ) : ((max x y : ℝ) : EReal) = max (x : EReal) (y : EReal) :=
  EReal.coe_strictMono.monotone.map_max

/-- The slope as a real number. -/
def slopeR : ℝ := 13421773 / 67108864

theorem slope_coe : slope = (slopeR : EReal) := by
  unfold slope slopeR
  simp [Ideal.ofBits, Ideal.ieee, -EReal.coe_mul]; norm_num

theorem slopeR_nonneg : 0 ≤ slopeR := by unfold slopeR; norm_num
theorem slopeR_le_one : slopeR ≤ 1 := by unfold slopeR; norm_num

/-- The rectifier on the reals. -/
def leakyR (x : ℝ) : ℝ := max x (slopeR * x)

theorem leaky_coe (x : ℝ) : leaky (x : EReal) = (leakyR x : EReal) := by
  unfold leaky leakyR
  rw [slope_coe, ← EReal.coe_mul, coe_max]

/-- The choice on the sign is the larger of x and slope · x, because 0 ≤ slope ≤ 1. -/
theorem refLeaky_coe (x : ℝ) : refLeaky (x : EReal) = (leakyR x : EReal) := by
  unfold refLeaky leakyR
  rw [Ideal.ofBits_zero_f32, slope_coe, ← EReal.coe_mul]
  unfold Scalar.select
  have h1 := slopeR_le_one
  by_cases hx : 0 ≤ x
  · have hc : Ideal.cmp .oge (x : EReal) 0 = 1 := by
      have : (0 : EReal) ≤ (x : EReal) := by exact_mod_cast hx
      simp [Ideal.cmp, this]
    rw [if_pos hc, max_eq_left (by nlinarith)]
  · have hc : ¬ Ideal.cmp .oge (x : EReal) 0 = 1 := by
      have : ¬ (0 : EReal) ≤ (x : EReal) := by exact_mod_cast hx
      simp [Ideal.cmp, this]
    rw [if_neg hc, max_eq_right (by nlinarith)]

/-- The rectifier is monotone, because 0 ≤ slope. -/
theorem leakyR_mono : Monotone leakyR := by
  intro x y hxy
  unfold leakyR
  exact max_le_max hxy (mul_le_mul_of_nonneg_left hxy slopeR_nonneg)

/-! ## The layer on real inputs -/

section Real

variable (hr : Fin 8192 → Fin 256 → ℝ) (Wr : Fin 256 → Fin 64 → ℝ) (ar : Fin 128 → ℝ)

/-- The projected features of real inputs. -/
def projR (i : Fin 8192) (f : Fin 64) : ℝ := ∑ k : Fin 256, hr i k * Wr k f

/-- The source score of real inputs. -/
def srcR (i : Fin 8192) : ℝ := ∑ f : Fin 64, projR hr Wr i f * ar ⟨f.val, by omega⟩

/-- The destination score of real inputs. -/
def dstR (j : Fin 8192) : ℝ := ∑ f : Fin 64, projR hr Wr j f * ar ⟨64 + f.val, by omega⟩

theorem proj_coe (i : Fin 8192) (f : Fin 64) :
    proj (fun i k => (hr i k : EReal)) (fun k f => (Wr k f : EReal)) i f = (projR hr Wr i f : EReal) := by
  unfold proj projR
  rw [coe_sum]
  exact Finset.sum_congr rfl fun k _ => (EReal.coe_mul _ _).symm

theorem srcScore_coe (i : Fin 8192) :
    srcScore (fun i k => (hr i k : EReal)) (fun k f => (Wr k f : EReal)) (fun r => (ar r : EReal)) i
      = (srcR hr Wr ar i : EReal) := by
  unfold srcScore srcR
  rw [coe_sum]
  exact Finset.sum_congr rfl fun f _ => by rw [proj_coe, EReal.coe_mul]

theorem dstScore_coe (j : Fin 8192) :
    dstScore (fun i k => (hr i k : EReal)) (fun k f => (Wr k f : EReal)) (fun r => (ar r : EReal)) j
      = (dstR hr Wr ar j : EReal) := by
  unfold dstScore dstR
  rw [coe_sum]
  exact Finset.sum_congr rfl fun f _ => by rw [proj_coe, EReal.coe_mul]

/-- Some destination has the largest score. -/
theorem exists_dst_max : ∃ j0 : Fin 8192, ∀ j, dstR hr Wr ar j ≤ dstR hr Wr ar j0 := by
  obtain ⟨j0, _, hj0⟩ := Finset.exists_max_image (Finset.univ : Finset (Fin 8192)) (dstR hr Wr ar)
    ⟨⟨0, by norm_num⟩, Finset.mem_univ _⟩
  exact ⟨j0, fun j => hj0 j (Finset.mem_univ j)⟩

variable (j0 : Fin 8192) (hj0 : ∀ j, dstR hr Wr ar j ≤ dstR hr Wr ar j0)

include hj0 in
theorem dstMax_coe :
    dstMax (fun i k => (hr i k : EReal)) (fun k f => (Wr k f : EReal)) (fun r => (ar r : EReal))
      = (dstR hr Wr ar j0 : EReal) := by
  unfold dstMax
  apply le_antisymm
  · refine Finset.sup_le fun j _ => ?_
    rw [dstScore_coe]
    exact_mod_cast hj0 j
  · rw [← dstScore_coe]
    exact Finset.le_sup (f := dstScore (fun i k => (hr i k : EReal)) (fun k f => (Wr k f : EReal)) (fun r => (ar r : EReal)))
      (Finset.mem_univ j0)

/-- The row's largest score, a real: the rectified sum of the source score and the largest destination score. -/
def rowMaxR (i : Fin 8192) : ℝ := leakyR (srcR hr Wr ar i + dstR hr Wr ar j0)

include hj0 in
theorem rowMax_coe (i : Fin 8192) :
    rowMax (fun i k => (hr i k : EReal)) (fun k f => (Wr k f : EReal)) (fun r => (ar r : EReal)) i
      = (rowMaxR hr Wr ar j0 i : EReal) := by
  unfold rowMax rowMaxR
  rw [srcScore_coe, dstMax_coe hr Wr ar j0 hj0, ← EReal.coe_add, leaky_coe]

theorem refScore_coe (i j : Fin 8192) :
    refScore (fun i k => (hr i k : EReal)) (fun k f => (Wr k f : EReal)) (fun r => (ar r : EReal)) i j
      = (leakyR (srcR hr Wr ar i + dstR hr Wr ar j) : EReal) := by
  unfold refScore
  rw [srcScore_coe, dstScore_coe, ← EReal.coe_add, refLeaky_coe]

include hj0 in
/-- The largest rectified score of a row sits at a destination with the largest score: the rectifier and the sum
    with the source score are monotone. -/
theorem refRowMax_coe (i : Fin 8192) :
    refRowMax (fun i k => (hr i k : EReal)) (fun k f => (Wr k f : EReal)) (fun r => (ar r : EReal)) i
      = (rowMaxR hr Wr ar j0 i : EReal) := by
  have hb : Ideal.ofBits .f32 0xFF800000#32 = (⊥ : EReal) := by simp [Ideal.ofBits, Ideal.ieee]
  unfold refRowMax rowMaxR
  rw [hb, max_eq_right bot_le]
  apply le_antisymm
  · rw [Finset.fold_max_le]
    refine ⟨bot_le, fun j _ => ?_⟩
    rw [refScore_coe]
    exact_mod_cast leakyR_mono (by linarith [hj0 j])
  · rw [Finset.le_fold_max]
    exact Or.inr ⟨j0, Finset.mem_univ _, by rw [refScore_coe]⟩

/-- The unnormalised weight, a positive real. -/
def weightR (i j : Fin 8192) : ℝ := Real.exp (leakyR (srcR hr Wr ar i + dstR hr Wr ar j) - rowMaxR hr Wr ar j0 i)

include hj0 in
theorem weight_coe (i j : Fin 8192) :
    weight (fun i k => (hr i k : EReal)) (fun k f => (Wr k f : EReal)) (fun r => (ar r : EReal)) i j
      = (weightR hr Wr ar j0 i j : EReal) := by
  unfold weight weightR
  rw [srcScore_coe, dstScore_coe, ← EReal.coe_add, leaky_coe, rowMax_coe hr Wr ar j0 hj0, ← EReal.coe_sub, Ideal.exp_coe]

include hj0 in
theorem refWeight_coe (i j : Fin 8192) :
    refWeight (fun i k => (hr i k : EReal)) (fun k f => (Wr k f : EReal)) (fun r => (ar r : EReal)) i j
      = (weightR hr Wr ar j0 i j : EReal) := by
  unfold refWeight weightR
  rw [refScore_coe, refRowMax_coe hr Wr ar j0 hj0, ← EReal.coe_sub, Ideal.exp_coe]

/-- The row's normaliser, a positive real. -/
def denomR (i : Fin 8192) : ℝ := ∑ j : Fin 8192, weightR hr Wr ar j0 i j

theorem denomR_pos (i : Fin 8192) : 0 < denomR hr Wr ar j0 i :=
  Finset.sum_pos (fun j _ => Real.exp_pos _) ⟨⟨0, by norm_num⟩, Finset.mem_univ _⟩

include hj0 in
theorem denom_coe (i : Fin 8192) :
    denom (fun i k => (hr i k : EReal)) (fun k f => (Wr k f : EReal)) (fun r => (ar r : EReal)) i
      = (denomR hr Wr ar j0 i : EReal) := by
  unfold denom denomR
  rw [coe_sum]
  exact Finset.sum_congr rfl fun j _ => weight_coe hr Wr ar j0 hj0 i j

include hj0 in
theorem refDenom_coe (i : Fin 8192) :
    refDenom (fun i k => (hr i k : EReal)) (fun k f => (Wr k f : EReal)) (fun r => (ar r : EReal)) i
      = (denomR hr Wr ar j0 i : EReal) := by
  unfold refDenom denomR
  rw [Ideal.ofBits_zero_f32, zero_add, coe_sum]
  exact Finset.sum_congr rfl fun j _ => refWeight_coe hr Wr ar j0 hj0 i j

include hj0 in
/-- Dividing every weight by the positive normaliser before the weighted sum, or the finished sum once, is the same
    real number. -/
theorem refOut_coe_eq (i : Fin 8192) (f : Fin 64) :
    refOut (fun i k => (hr i k : EReal)) (fun k f => (Wr k f : EReal)) (fun r => (ar r : EReal)) i f
      = out (fun i k => (hr i k : EReal)) (fun k f => (Wr k f : EReal)) (fun r => (ar r : EReal)) i f := by
  have hd : denomR hr Wr ar j0 i ≠ 0 := (denomR_pos hr Wr ar j0 i).ne'
  have hl : refOut (fun i k => (hr i k : EReal)) (fun k f => (Wr k f : EReal)) (fun r => (ar r : EReal)) i f
      = ((∑ j : Fin 8192, weightR hr Wr ar j0 i j * (1 / denomR hr Wr ar j0 i) * projR hr Wr j f : ℝ) : EReal) := by
    unfold refOut
    rw [coe_sum]
    refine Finset.sum_congr rfl fun j _ => ?_
    rw [refWeight_coe hr Wr ar j0 hj0, refDenom_coe hr Wr ar j0 hj0, Ideal.div_coe hd, proj_coe, ← EReal.coe_mul,
      ← EReal.coe_mul]
  have hrr : out (fun i k => (hr i k : EReal)) (fun k f => (Wr k f : EReal)) (fun r => (ar r : EReal)) i f
      = (((∑ j : Fin 8192, weightR hr Wr ar j0 i j * projR hr Wr j f) * (1 / denomR hr Wr ar j0 i) : ℝ) : EReal) := by
    have hs : ∑ j : Fin 8192, weight (fun i k => (hr i k : EReal)) (fun k f => (Wr k f : EReal)) (fun r => (ar r : EReal)) i j
          * proj (fun i k => (hr i k : EReal)) (fun k f => (Wr k f : EReal)) j f
        = ∑ j : Fin 8192, ((weightR hr Wr ar j0 i j * projR hr Wr j f : ℝ) : EReal) :=
      Finset.sum_congr rfl fun j _ => by rw [weight_coe hr Wr ar j0 hj0, proj_coe, ← EReal.coe_mul]
    unfold out numer
    rw [denom_coe hr Wr ar j0 hj0, Ideal.div_coe hd, hs, ← coe_sum, ← EReal.coe_mul]
  have e : ∑ j : Fin 8192, weightR hr Wr ar j0 i j * (1 / denomR hr Wr ar j0 i) * projR hr Wr j f
      = (∑ j : Fin 8192, weightR hr Wr ar j0 i j * projR hr Wr j f) * (1 / denomR hr Wr ar j0 i) := by
    rw [Finset.sum_mul]
    exact Finset.sum_congr rfl fun j _ => by ring
  rw [hl, hrr, e]

end Real

/-! ## The two arrangements agree on finite inputs -/

/-- On inputs whose every entry is a real number the reference's arrangement is the specification. -/
theorem refOut_eq_out (h : Fin 8192 → Fin 256 → EReal) (W : Fin 256 → Fin 64 → EReal) (a : Fin 128 → EReal)
    (hh : ∀ i k, ∃ r : ℝ, h i k = (r : EReal)) (hW : ∀ k f, ∃ r : ℝ, W k f = (r : EReal))
    (ha : ∀ r, ∃ x : ℝ, a r = (x : EReal)) : refOut h W a = out h W a := by
  choose hr hhr using hh
  choose Wr hWr using hW
  choose ar har using ha
  obtain rfl : h = fun i k => (hr i k : EReal) := funext fun i => funext fun k => hhr i k
  obtain rfl : W = fun k f => (Wr k f : EReal) := funext fun k => funext fun f => hWr k f
  obtain rfl : a = fun r => (ar r : EReal) := funext fun r => har r
  obtain ⟨j0, hj0⟩ := exists_dst_max hr Wr ar
  funext i f
  exact refOut_coe_eq hr Wr ar j0 hj0 i f

end Cert.Attn

end
-- ==== Proof.RefRead.lean ====
/-
  The reference program read at an index.

  Every stage of the reference is read at a pair of coordinates from the argument arrays: the first product is the
  projected features, the two products with the halves of the attention vector are the source and the destination
  score, their broadcast sum rectified by a choice on the sign is the edge score, the reduction of a row by the larger
  of two from −∞ is the running maximum over the row's coordinates, the exponential of the difference is the weight,
  the reduction of a row by the sum from zero is the normaliser, and the last product sums the normalised weights
  against the projected features. Together: the reference's result array is its own arrangement of the layer.
-/
import proofs.«127026_j42253888258789_2_alg».proof.Proof.Gen.ReferenceIdeal.Read
import proofs.«127026_j42253888258789_2_alg».proof.Proof.Spec
import proofs.«127026_j42253888258789_2_alg».proof.Proof.RefMath

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The node features by coordinates. -/
abbrev hOf (x0 : FVec Ideal S8192x256 .f32) : Fin 8192 → Fin 256 → EReal := fun i k => x0 (ix2 i k)
/-- The projection by coordinates. -/
abbrev WOf (x2 : FVec Ideal S256x64 .f32) : Fin 256 → Fin 64 → EReal := fun k f => x2 (ix2 k f)
/-- The attention vector by its one coordinate. -/
abbrev aOf (x3 : FVec Ideal S128x1 .f32) : Fin 128 → EReal := fun r => x3 (ix2 r (0 : Fin 1))

variable (x0 : FVec Ideal S8192x256 .f32) (x2 : FVec Ideal S256x64 .f32) (x3 : FVec Ideal S128x1 .f32)

/-- The first product at (i, f) is the projected feature. -/
theorem proj_at (i : Fin 8192) (f : Fin 64) :
    val_main_v0 (F := Ideal) x0 x2 (ix2 i f) = proj (hOf x0) (WOf x2) i f := by
  rw [val_main_v0_apply]
  unfold Cert.Attn.proj
  exact Finset.sum_congr rfl fun k _ => by
    rw [show lidx_main_v0 (ix2 i f) k = ix2 i k from funext fun a => match a with | ⟨0, _⟩ => rfl | ⟨1, _⟩ => rfl,
      show ridx_main_v0 (ix2 i f) k = ix2 k f from funext fun a => match a with | ⟨0, _⟩ => rfl | ⟨1, _⟩ => rfl]

/-- The product with the first half of the attention vector at row i is the source score. -/
theorem src_at (i : Fin 8192) :
    val_main_v2 (F := Ideal) x0 x2 x3 (ix2 i (0 : Fin 1)) = srcScore (hOf x0) (WOf x2) (aOf x3) i := by
  rw [val_main_v2_apply]
  unfold Cert.Attn.srcScore
  exact Finset.sum_congr rfl fun f _ => by
    rw [show lidx_main_v2 (ix2 i (0 : Fin 1)) f = ix2 i f from funext fun a => match a with | ⟨0, _⟩ => rfl | ⟨1, _⟩ => rfl,
      proj_at, val_main_v1_apply,
      show idx_main_v1 (ridx_main_v2 (ix2 i (0 : Fin 1)) f) = ix2 (⟨f.val, by omega⟩ : Fin 128) (0 : Fin 1) from
        funext fun a => match a with | ⟨0, _⟩ => rfl | ⟨1, _⟩ => rfl]

/-- The product with the second half of the attention vector at row j is the destination score. -/
theorem dst_at (j : Fin 8192) :
    val_main_v4 (F := Ideal) x0 x2 x3 (ix2 j (0 : Fin 1)) = dstScore (hOf x0) (WOf x2) (aOf x3) j := by
  rw [val_main_v4_apply]
  unfold Cert.Attn.dstScore
  exact Finset.sum_congr rfl fun f _ => by
    rw [show lidx_main_v4 (ix2 j (0 : Fin 1)) f = ix2 j f from funext fun a => match a with | ⟨0, _⟩ => rfl | ⟨1, _⟩ => rfl,
      proj_at, val_main_v3_apply,
      show idx_main_v3 (ridx_main_v4 (ix2 j (0 : Fin 1)) f) = ix2 (⟨64 + f.val, by omega⟩ : Fin 128) (0 : Fin 1) from
        funext fun a => match a with | ⟨0, _⟩ => rfl | ⟨1, _⟩ => rfl]

/-- The broadcast sum at (i, j) is the source score of i plus the destination score of j. -/
theorem edge_at (i j : Fin 8192) :
    val_main_v8 (F := Ideal) x0 x2 x3 (ix2 i j)
      = srcScore (hOf x0) (WOf x2) (aOf x3) i + dstScore (hOf x0) (WOf x2) (aOf x3) j := by
  rw [val_main_v8_apply, val_main_v6_apply, val_main_v7_apply, val_main_v5_apply,
    show idx_main_v6 (ix2 i j) = ix2 i (0 : Fin 1) from funext fun a => match a with | ⟨0, _⟩ => rfl | ⟨1, _⟩ => rfl,
    show idx_main_v5 (idx_main_v7 (ix2 i j)) = ix2 j (0 : Fin 1) from funext fun a => match a with | ⟨0, _⟩ => rfl | ⟨1, _⟩ => rfl,
    src_at, dst_at]
  rfl

/-- The rectified sum at (i, j) is the reference's edge score. -/
theorem score_at (i j : Fin 8192) :
    val_main_v13 (F := Ideal) x0 x2 x3 (ix2 i j) = refScore (hOf x0) (WOf x2) (aOf x3) i j := by
  rw [val_main_v13_apply, val_main_v10_apply, val_main_v12_apply, val_main_v9_apply, val_main_v11_apply,
    val_main_cst_apply, val_main_cst_0_apply, edge_at]
  rfl

/-- Row i's index with the column k put back is (i, k). -/
theorem lift_row (hred : S8192x8192.Reduces [1] S8192) (i : Fin 8192) (k : Fin (S8192x8192.size 1)) :
    hred.lift (ix1 i) k = ix2 i (⟨k.val, k.isLt⟩ : Fin 8192) := by
  funext c; apply Fin.ext
  fin_cases c <;> rfl

/-- The reduction of a row by the larger of two, from −∞, is the running maximum over the row's coordinates. -/
theorem rowMax_read (y : FVec Ideal S8192x8192 .f32) (i : Fin 8192) :
    Host.reduce (FloatOps.maximumf (F := Ideal) (φ := .f32)) y (val_main_cst_1 (F := Ideal)) reducesTo_S8192x8192_S8192_d1 h_S_ (ix1 i)
      = Finset.univ.fold max (Ideal.ofBits .f32 0xFF800000#32) fun j : Fin 8192 => y (ix2 i j) := by
  have hred : S8192x8192.Reduces [1] S8192 := by decide
  rw [Host.reduce_eq_fold_single (FloatOps.maximumf (F := Ideal) (φ := .f32)) y _ reducesTo_S8192x8192_S8192_d1 hred h_S_]
  have hf : (y ∘ hred.lift (ix1 i)) = fun j : Fin 8192 => y (ix2 i j) := funext fun k => congrArg y (lift_row hred i k)
  exact congrArg (fun g => Finset.fold max (Ideal.ofBits .f32 0xFF800000#32) g (Finset.univ : Finset (Fin 8192))) hf

/-- The row's maximum at i is the reference's. -/
theorem rowMax_at (i : Fin 8192) :
    val_main_v16 (F := Ideal) x0 x2 x3 (ix1 i) = refRowMax (hOf x0) (WOf x2) (aOf x3) i := by
  rw [val_main_v16_apply, val_main_v15_apply, val_main_cst_2_apply]
  unfold val_main_v14
  rw [rowMax_read]
  unfold Cert.Attn.refRowMax
  exact congrArg (max (Ideal.ofBits .f32 0xFF800000#32))
    (congrArg (fun g => Finset.fold max (Ideal.ofBits .f32 0xFF800000#32) g (Finset.univ : Finset (Fin 8192)))
      (funext fun j => score_at x0 x2 x3 i j))

/-- The exponential of the score less the row's maximum at (i, j) is the reference's weight. -/
theorem weight_at (i j : Fin 8192) :
    val_main_v20 (F := Ideal) x0 x2 x3 (ix2 i j) = refWeight (hOf x0) (WOf x2) (aOf x3) i j := by
  rw [val_main_v20_apply, val_main_v19_apply, val_main_v18_apply, val_main_v17_apply,
    show idx_main_v17 (idx_main_v18 (ix2 i j)) = ix1 i from funext fun a => match a with | ⟨0, _⟩ => rfl,
    rowMax_at, score_at]
  rfl

/-- The sum of a row's weights from zero at i is the reference's normaliser. -/
theorem denom_at (i : Fin 8192) :
    val_main_v21 (F := Ideal) x0 x2 x3 (ix1 i) = refDenom (hOf x0) (WOf x2) (aOf x3) i := by
  rw [val_main_v21_apply, val_main_cst_3_apply]
  unfold Cert.Attn.refDenom
  refine congrArg (Ideal.ofBits .f32 0x00000000#32 + ·) (Finset.sum_congr rfl fun j _ => ?_)
  rw [show idx_main_v21 (ix1 i) j = ix2 i j from funext fun a => match a with | ⟨0, _⟩ => rfl | ⟨1, _⟩ => rfl, weight_at]

/-- The normalised weight at (i, j). -/
theorem attn_at (i j : Fin 8192) :
    val_main_v24 (F := Ideal) x0 x2 x3 (ix2 i j)
      = Ideal.div (refWeight (hOf x0) (WOf x2) (aOf x3) i j) (refDenom (hOf x0) (WOf x2) (aOf x3) i) := by
  rw [val_main_v24_apply, val_main_v23_apply, val_main_v22_apply,
    show idx_main_v22 (idx_main_v23 (ix2 i j)) = ix1 i from funext fun a => match a with | ⟨0, _⟩ => rfl,
    denom_at, weight_at]
  rfl

/-- The reference's result array is its own arrangement of the layer, of the argument arrays by coordinates. -/
theorem result_eq :
    val_main_v25 (F := Ideal) x0 x2 x3 = arr2 (refOut (hOf x0) (WOf x2) (aOf x3)) := by
  funext idx
  obtain ⟨i, f, rfl⟩ : ∃ (i : Fin 8192) (f : Fin 64), idx = ix2 i f := ⟨idx 0, idx 1, eq_ix2 idx⟩
  rw [val_main_v25_apply, arr2_ix2]
  unfold Cert.Attn.refOut
  refine Finset.sum_congr rfl fun j _ => ?_
  rw [show lidx_main_v25 (ix2 i f) j = ix2 i j from funext fun a => match a with | ⟨0, _⟩ => rfl | ⟨1, _⟩ => rfl,
    show ridx_main_v25 (ix2 i f) j = ix2 j f from funext fun a => match a with | ⟨0, _⟩ => rfl | ⟨1, _⟩ => rfl,
    attn_at, proj_at]

end Cert.ReferenceIdeal.RefValue

end
-- ==== Proof.RefRun.lean ====
/-
  The reference's run, with its result array stated as the specification.

  The reference's run ends with its result array at the composed term of its operations, which read at an index is
  the reference's own arrangement of the attention layer; on argument arrays whose every entry is a real number
  that arrangement is the specification's: the rectifier by a choice on the sign is the larger of x and slope · x, the
  largest rectified score of a row is the rectified sum with the largest destination score, and dividing each
  weight by the row's positive normaliser before the weighted sum is dividing the finished sum once.
-/
import proofs.«127026_j42253888258789_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

/-- From a memory whose three float argument arrays hold real numbers, every weakly fair execution of the reference
    terminates with its result array at the specification of those arrays, and the arguments unchanged. -/
theorem run_out (m' : (ℓ : Loc Cert.ReferenceIdeal.nD Cert.ReferenceIdeal.τ Cert.ReferenceIdeal.sig) → Buf (Elt Ideal) ℓ)
    (ρ' : Dev Cert.ReferenceIdeal.nD → PrngReg)
    (hfin : ∀ c : Dev Cert.ReferenceIdeal.nD,
      (∀ i, ∃ r : ℝ, m' ((c.tc : Thread Cert.ReferenceIdeal.nD Cert.ReferenceIdeal.τ).loc Cert.ReferenceIdeal.main_arg0) i = (r : EReal))
      ∧ (∀ i, ∃ r : ℝ, m' ((c.tc : Thread Cert.ReferenceIdeal.nD Cert.ReferenceIdeal.τ).loc Cert.ReferenceIdeal.main_arg2) i = (r : EReal))
      ∧ (∀ i, ∃ r : ℝ, m' ((c.tc : Thread Cert.ReferenceIdeal.nD Cert.ReferenceIdeal.τ).loc Cert.ReferenceIdeal.main_arg3) i = (r : EReal))) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v25)
        = Cert.Attn.arr2 (Cert.Attn.out
            (fun i k => m' ((c.tc : Thread Cert.ReferenceIdeal.nD Cert.ReferenceIdeal.τ).loc Cert.ReferenceIdeal.main_arg0) (ValueIdx.ix2 i k))
            (fun k f => m' ((c.tc : Thread Cert.ReferenceIdeal.nD Cert.ReferenceIdeal.τ).loc Cert.ReferenceIdeal.main_arg2) (ValueIdx.ix2 k f))
            (fun r => m' ((c.tc : Thread Cert.ReferenceIdeal.nD Cert.ReferenceIdeal.τ).loc Cert.ReferenceIdeal.main_arg3) (ValueIdx.ix2 r 0)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run (Cert.ReferenceIdeal.defs (F := Ideal)) _ _).mono (fun _ h c => ⟨(h c).1.trans ?_, (h c).2⟩)
    (Cert.ReferenceIdeal.Value.run (F := Ideal) m' ρ')
  obtain ⟨h0, h2, h3⟩ := hfin c
  rw [Cert.ReferenceIdeal.Read.val_main_v25_eq, result_eq]
  exact congrArg Cert.Attn.arr2 (Cert.Attn.refOut_eq_out _ _ _ (fun i k => h0 (ValueIdx.ix2 i k))
    (fun k f => h2 (ValueIdx.ix2 k f)) (fun r => h3 (ValueIdx.ix2 r 0)))

end Cert.ReferenceIdeal.RefValue

end
-- ==== Proof.Finite.lean ====
/-
  From the precondition to "every entry is a real number".

  The precondition is the conjunction, over the three float argument arrays, of "every entry's absolute value is
  below +∞". A conjunction of bits that is one has every conjunct one; a reduction by "and" over a whole array that
  is one has a one at every index; and an extended real x with max x (−x) < +∞ is neither +∞ nor −∞, so it is a real.
-/
import proofs.«127026_j42253888258789_2_alg».proof.Pre_finite_inputs
import Idealize.ShloMosaic.Lib.ReduceAll
import Idealize.ShloMosaic.Lib.ValueIdx
import Idealize.ShloMosaic.PureOps.Ideal.Laws

noncomputable section

namespace Cert.Fin

open Idealize.ShloMosaic Cert.Pre_finite_inputs

/-- The scalar shape has one index. -/
instance : Subsingleton S_.Idx := ⟨fun _ _ => funext fun d => d.elim0⟩

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | top => simp [Ideal.cmp] at h
  | coe r => exact ⟨r, rfl⟩

/-- An array whose "all entries have absolute value below +∞" bit is one holds real numbers only. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := fun i =>
  real_of_abs_lt (x i) (Host.reduce_andi_all _ _ hr hu ValueIdx.ix0 e i)

/-- Under the precondition the three float argument arrays hold real numbers only. -/
theorem reals_of_pre [Cert.Pre_finite_inputs.Facts] (x0 : FVec Ideal S8192x256 .f32) (x1 : IVec S8192x8192 1)
    (x2 : FVec Ideal S256x64 .f32) (x3 : FVec Ideal S128x1 .f32)
    (hp : Cert.Pre_finite_inputs.fn (F := Ideal) x0 x1 x2 x3 = fun _ => 1#1) :
    (∀ i, ∃ r : ℝ, x0 i = (r : EReal)) ∧ (∀ i, ∃ r : ℝ, x2 i = (r : EReal)) ∧ (∀ i, ∃ r : ℝ, x3 i = (r : EReal)) := by
  have h := congrFun hp ValueIdx.ix0
  dsimp only [Cert.Pre_finite_inputs.fn] at h
  obtain ⟨h02, h3⟩ := IntOp.andi_eq_one.1 h
  obtain ⟨h0, h2⟩ := IntOp.andi_eq_one.1 h02
  exact ⟨all_real x0 _ _ _ h0, all_real x2 _ _ _ h2, all_real x3 _ _ _ h3⟩

end Cert.Fin

end
-- ==== Proof.lean ====
/-
  A graph-attention layer computed two ways. The reference projects the node features, scores every edge by a
  leaky rectifier of the sum of a source and a destination score, normalises each row of scores by a softmax and
  multiplies by the projected features. The kernel computes the same projection and scores in a first tiled pass;
  then, since the rectifier is monotone, knows each row's largest score in advance from the largest destination
  score, and so makes a single pass over key tiles, accumulating the row sum of exponentials and the weighted sum of
  projected features side by side and dividing once at the end.

  Read as exact extended reals the two results agree on finite inputs: a select on the sign is the maximum with the
  scaled value because the slope lies strictly between 0 and 1; the maximum of a monotone function of the scores
  is the function of their maximum; a sum over eight tiles of a thousand columns is the sum over all columns; and
  dividing every weight by the row sum before the final product is dividing the finished sum once, the row sum being
  a positive real. Finiteness is used only for the last three steps, all on the reference's side.

  Both kernels' frames — every execution terminates, nothing faults, the argument arrays end unchanged — are proved
  for any reading of the floats over the library's launch of a program of several regions: the first region by one
  symbolic run of its body, the second by three runs (first, middle, last key tile) under an invariant that holds
  the two accumulators, between grid points, at exactly what the point before left in them.
-/
import proofs.«127026_j42253888258789_2_alg».proof.Defs
import proofs.«127026_j42253888258789_2_alg».proof.Proof.Gen.Kernel
import proofs.«127026_j42253888258789_2_alg».proof.Proof.Gen.KernelIdeal
import proofs.«127026_j42253888258789_2_alg».proof.Proof.Gen.ReferenceIdeal
import proofs.«127026_j42253888258789_2_alg».proof.Proof.Gen.Pre_finite_inputs
import proofs.«127026_j42253888258789_2_alg».proof.Proof.Gen.ReferenceIdeal.Run
import proofs.«127026_j42253888258789_2_alg».proof.Proof.KFrameRun
import proofs.«127026_j42253888258789_2_alg».proof.Proof.FrameRun
import proofs.«127026_j42253888258789_2_alg».proof.Proof.ValKernel
import proofs.«127026_j42253888258789_2_alg».proof.Proof.RefRun
import proofs.«127026_j42253888258789_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frm.frame m ρ

theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the specification's output of the (agreeing, finite) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hfin : ∀ c : Dev Cert.ReferenceIdeal.nD,
      (∀ i, ∃ r : ℝ, m' ((c.tc : Thread Cert.ReferenceIdeal.nD Cert.ReferenceIdeal.τ).loc Cert.ReferenceIdeal.main_arg0) i = (r : EReal))
      ∧ (∀ i, ∃ r : ℝ, m' ((c.tc : Thread Cert.ReferenceIdeal.nD Cert.ReferenceIdeal.τ).loc Cert.ReferenceIdeal.main_arg2) i = (r : EReal))
      ∧ (∀ i, ∃ r : ℝ, m' ((c.tc : Thread Cert.ReferenceIdeal.nD Cert.ReferenceIdeal.τ).loc Cert.ReferenceIdeal.main_arg3) i = (r : EReal)) := by
    intro c
    obtain ⟨e0, _, e2, e3⟩ := hagree c
    rw [e0, e2, e3]
    exact Cert.Fin.reals_of_pre _ _ _ _ (hpre c)
  refine ⟨fun c => Cert.Attn.arr2 (Cert.Attn.out (Cert.KernelIdeal.Val1.hh m c) (Cert.KernelIdeal.Val1.ww m c) (Cert.KernelIdeal.Val1.aa m c)),
    Cert.KernelIdeal.Val1.run_out m ρ, ?_⟩
  refine (θ_run Cert.ReferenceIdeal.defs _ _).mono (fun _ h c => ⟨(h c).1.trans ?_, (h c).2⟩)
    (Cert.ReferenceIdeal.RefValue.run_out m' ρ' hfin)
  obtain ⟨e0, _, e2, e3⟩ := hagree c
  rw [e0, e2, e3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
